-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S50x64 : S_.BroadcastsInDim S50x64 (![] : Fin 0 → Fin S50x64.rank)
  reducesTo_S50x64_S_d0_1 : S50x64.ReducesTo [0, 1] S_
  bcast_S_S64x121 : S_.BroadcastsInDim S64x121 (![] : Fin 0 → Fin S64x121.rank)
  reducesTo_S64x121_S_d0_1 : S64x121.ReducesTo [0, 1] S_

variable [Facts]

def fn {F : FTy → Type} [FloatOps F] (main_arg0 : FVec F S50000x50 .f32) (main_arg1 : FVec F S50x64 .f32) (main_arg2 : FVec F S64x121 .f32) (main_arg3 : IVec S2x800000 32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S50x64 .f32 := Host.absf main_arg1
  let main_cst_0 : FVec F S_ .f32 := constant S_ .f32 0x7F800000#32
  let main_v5 : FVec F S50x64 .f32 := broadcastInDim S50x64 ![] bcast_S_S50x64 main_cst_0
  let main_v6 : IVec S50x64 1 := cmpf .olt main_v4 main_v5
  let main_c_1 : IVec S_ 1 := constantI S_ 1 1#1
  let main_v7 : IVec S_ 1 := (fun x v => Host.reduce IntOp.andi x v reducesTo_S50x64_S_d0_1 h_S_) main_v6 main_c_1
  let main_v8 : IVec S_ 1 := andi main_v3 main_v7
  let main_v9 : FVec F S64x121 .f32 := Host.absf main_arg2
  let main_cst_2 : FVec F S_ .f32 := constant S_ .f32 0x7F800000#32
  let main_v10 : FVec F S64x121 .f32 := broadcastInDim S64x121 ![] bcast_S_S64x121 main_cst_2
  let main_v11 : IVec S64x121 1 := cmpf .olt main_v9 main_v10
  let main_c_3 : IVec S_ 1 := constantI S_ 1 1#1
  let main_v12 : IVec S_ 1 := (fun x v => Host.reduce IntOp.andi x v reducesTo_S64x121_S_d0_1 h_S_) main_v11 main_c_3
  let main_v13 : IVec S_ 1 := andi main_v8 main_v12
  main_v13
-- ==== Kernel.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x50 : Shape := ⟨2, ![5000, 50]⟩
abbrev S5000x1 : Shape := ⟨2, ![5000, 1]⟩
abbrev S5000x64 : Shape := ⟨2, ![5000, 64]⟩
abbrev S800000x64 : Shape := ⟨2, ![800000, 64]⟩
abbrev S50000x121 : Shape := ⟨2, ![50000, 121]⟩
abbrev S5000x121 : Shape := ⟨2, ![5000, 121]⟩
abbrev S800000x121 : Shape := ⟨2, ![800000, 121]⟩

abbrev nBuf : Space → Nat
  | .hbm => 56
  | .vmem => 14
  | .smem => 0
  | _ => 0

abbrev bufTy : (tb : Table) → Fin (tcTables nBuf tb) → BufTy
  | .hbm, ⟨0, _⟩ => ⟨S50000x50, .f32⟩
  | .hbm, ⟨1, _⟩ => ⟨S50x64, .f32⟩
  | .hbm, ⟨2, _⟩ => ⟨S64x121, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x121, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x121, .f32⟩
  | .hbm, ⟨48, _⟩ => ⟨S_, .f32⟩
  | .hbm, ⟨49, _⟩ => ⟨S50000x121, .f32⟩
  | .hbm, ⟨50, _⟩ => ⟨S800000x1, .i32⟩
  | .hbm, ⟨51, _⟩ => ⟨S50000x121, .f32⟩
  | .hbm, ⟨52, _⟩ => ⟨S50000x1, .f32⟩
  | .hbm, ⟨53, _⟩ => ⟨S50000x121, .f32⟩
  | .hbm, ⟨54, _⟩ => ⟨S50000x121, .f32⟩
  | .hbm, ⟨55, _⟩ => ⟨S50000x121, .f32⟩
  | .local _ .vmem, ⟨0, _⟩ => ⟨S5000x50, .f32⟩
  | .local _ .vmem, ⟨1, _⟩ => ⟨S5000x50, .f32⟩
  | .local _ .vmem, ⟨2, _⟩ => ⟨S50x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x121, .f32⟩
  | .local _ .vmem, ⟨10, _⟩ => ⟨S5000x1, .f32⟩
  | .local _ .vmem, ⟨11, _⟩ => ⟨S5000x1, .f32⟩
  | .local _ .vmem, ⟨12, _⟩ => ⟨S5000x121, .f32⟩
  | .local _ .vmem, ⟨13, _⟩ => ⟨S5000x121, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x121 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x121 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x50_S5000x50_0_0 : ∀ a, (![0, 0] : Fin 2 → Nat) a + S5000x50.size a ≤ S5000x50.size a
  h_S5000x50 : 0 < S5000x50.numel
  bitsLt_bf16_f32 : FTy.bits .bf16 < FTy.bits .f32
  inb_S50x64_S50x64_0_0 : ∀ a, (![0, 0] : Fin 2 → Nat) a + S50x64.size a ≤ S50x64.size a
  h_S50x64 : 0 < S50x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S5000x64_S5000x64 : S5000x64.ShapeCasts S5000x64
  inb_S64x121_S64x121_0_0 : ∀ a, (![0, 0] : Fin 2 → Nat) a + S64x121.size a ≤ S64x121.size a
  h_S64x121 : 0 < S64x121.numel
  broadcasts_S5000x1_S5000x121 : S5000x1.Broadcasts S5000x121
  inb_S5000x121_S5000x121_0_0 : ∀ a, (![0, 0] : Fin 2 → Nat) a + S5000x121.size a ≤ S5000x121.size a
  h_S5000x121 : 0 < S5000x121.numel
  bcast_S_S50000x121 : S_.BroadcastsInDim S50000x121 (![] : Fin 0 → Fin S50000x121.rank)
  bcast_S50000x1_S50000x121_0_1 : S50000x1.BroadcastsInDim S50000x121 (![0, 1] : Fin 2 → Fin S50000x121.rank)
  scatter_S50000_S800000x1_S800000_n_0_0_1_wf : ScatterDims.WF S50000 S800000x1 S800000 [] [0] [0] 1
  dot_S5000x50_S50x64_S5000x64_1_0_0_1_n_n_wf : DotDims.WF S5000x50 S50x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x121_S5000x121_1_0_0_1_n_n_wf : DotDims.WF S5000x64 S64x121 S5000x121 [1] [0] [0] [1] [] []
  gather_S50000x121_S800000x1_S800000x121_1_0_n_n_0_1_1121_wf : GatherDims.WF S50000x121 S800000x1 S800000x121 [1] [0] [] [0] [] 1 ![1, 121]
  scatter_S50000x121_S800000x1_S800000x121_1_0_0_1_wf : ScatterDims.WF S50000x121 S800000x1 S800000x121 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S50000x50.size a
  hwx0_0 : ∀ i : grid0.Coords, EltTy.bits .f32 = 32 ∨ (Rect.block (s := S50000x50) S5000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x64.size a ≤ S50x64.size a
  hwx0_1 : ∀ i : grid0.Coords, EltTy.bits .f32 = 32 ∨ (Rect.block (s := S50x64) S50x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x121.size a ≤ S64x121.size a
  hwx1_1 : ∀ i : grid1.Coords, EltTy.bits .f32 = 32 ∨ (Rect.block (s := S64x121) S64x121.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x121.size a ≤ S50000x121.size a
  hwx1_3 : ∀ i : grid1.Coords, EltTy.bits .f32 = 32 ∨ (Rect.block (s := S50000x121) S5000x121.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x50_S50x64_S5000x64_1_0_0_1_n_n : DotDims S5000x50 S50x64 S5000x64 where
  lhsContracting := [1]
  rhsContracting := [0]
  lhsNonContracting := [0]
  rhsNonContracting := [1]
  lhsBatch := []
  rhsBatch := []
  wf := dot_S5000x50_S50x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x121_S5000x121_1_0_0_1_n_n : DotDims S5000x64 S64x121 S5000x121 where
  lhsContracting := [1]
  rhsContracting := [0]
  lhsNonContracting := [0]
  rhsNonContracting := [1]
  lhsBatch := []
  rhsBatch := []
  wf := dot_S5000x64_S64x121_S5000x121_1_0_0_1_n_n_wf
def gather_S50000x121_S800000x1_S800000x121_1_0_n_n_0_1_1121 : GatherDims S50000x121 S800000x1 S800000x121 where
  offsetDims := [1]
  collapsedSliceDims := [0]
  operandBatchingDims := []
  startIndicesBatchingDims := []
  startIndexMap := [0]
  indexVectorDim := 1
  sliceSizes := ![1, 121]
  wf := gather_S50000x121_S800000x1_S800000x121_1_0_n_n_0_1_1121_wf
def scatter_S50000x121_S800000x1_S800000x121_1_0_0_1 : ScatterDims S50000x121 S800000x1 S800000x121 where
  updateWindowDims := [1]
  insertedWindowDims := [0]
  scatterDimsToOperandDims := [0]
  indexVectorDim := 1
  wf := scatter_S50000x121_S800000x1_S800000x121_1_0_0_1_wf

abbrev win0_0 : Pipeline.Window sig grid0 :=
  Pipeline.Window.ofSpec (Memref.whole main_arg0) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x121.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x121.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x121 : Shape := ⟨2, ![50000, 121]⟩
abbrev S850000x121 : Shape := ⟨2, ![850000, 121]⟩

abbrev nBuf : Space → Nat
  | .hbm => 101
  | .vmem => 0
  | .smem => 0
  | _ => 0

abbrev bufTy : (tb : Table) → Fin (tcTables nBuf tb) → BufTy
  | .hbm, ⟨0, _⟩ => ⟨S50000x50, .f32⟩
  | .hbm, ⟨1, _⟩ => ⟨S50x64, .f32⟩
  | .hbm, ⟨2, _⟩ => ⟨S64x121, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S850000, .i32⟩
  | .hbm, ⟨21, _⟩ => ⟨S850000, .i1⟩
  | .hbm, ⟨22, _⟩ => ⟨S_, .i32⟩
  | .hbm, ⟨23, _⟩ => ⟨S850000, .i32⟩
  | .hbm, ⟨24, _⟩ => ⟨S850000, .i32⟩
  | .hbm, ⟨25, _⟩ => ⟨S850000, .i32⟩
  | .hbm, ⟨26, _⟩ => ⟨S850000x1, .i32⟩
  | .hbm, ⟨27, _⟩ => ⟨S850000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S850000x1, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x64, .f32⟩
  | .hbm, ⟨48, _⟩ => ⟨S850000x64, .f32⟩
  | .hbm, ⟨49, _⟩ => ⟨S850000x64, .f32⟩
  | .hbm, ⟨50, _⟩ => ⟨S_, .f32⟩
  | .hbm, ⟨51, _⟩ => ⟨S50000x64, .f32⟩
  | .hbm, ⟨52, _⟩ => ⟨S850000x1, .i32⟩
  | .hbm, ⟨53, _⟩ => ⟨S50000x64, .f32⟩
  | .hbm, ⟨54, _⟩ => ⟨S50000x64, .f32⟩
  | .hbm, ⟨55, _⟩ => ⟨S50000x121, .f32⟩
  | .hbm, ⟨56, _⟩ => ⟨S50000, .i32⟩
  | .hbm, ⟨57, _⟩ => ⟨S850000, .i32⟩
  | .hbm, ⟨58, _⟩ => ⟨S850000, .i32⟩
  | .hbm, ⟨59, _⟩ => ⟨S_, .f32⟩
  | .hbm, ⟨60, _⟩ => ⟨S850000, .f32⟩
  | .hbm, ⟨61, _⟩ => ⟨S_, .f32⟩
  | .hbm, ⟨62, _⟩ => ⟨S50000, .f32⟩
  | .hbm, ⟨63, _⟩ => ⟨S850000x1, .i32⟩
  | .hbm, ⟨64, _⟩ => ⟨S50000, .f32⟩
  | .hbm, ⟨65, _⟩ => ⟨S50000, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S850000x1, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x121, .f32⟩
  | .hbm, ⟨95, _⟩ => ⟨S850000x121, .f32⟩
  | .hbm, ⟨96, _⟩ => ⟨S850000x121, .f32⟩
  | .hbm, ⟨97, _⟩ => ⟨S_, .f32⟩
  | .hbm, ⟨98, _⟩ => ⟨S50000x121, .f32⟩
  | .hbm, ⟨99, _⟩ => ⟨S850000x1, .i32⟩
  | .hbm, ⟨100, _⟩ => ⟨S50000x121, .f32⟩
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_c_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S850000x1_S850000x121_0_1 : S850000x1.BroadcastsInDim S850000x121 (![0, 1] : Fin 2 → Fin S850000x121.rank)
  bcast_S_S50000x121 : S_.BroadcastsInDim S50000x121 (![] : Fin 0 → Fin S50000x121.rank)
  dot_S50000x50_S50x64_S50000x64_1_0_0_1_n_n_wf : DotDims.WF S50000x50 S50x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x121_S50000x121_1_0_0_1_n_n_wf : DotDims.WF S50000x64 S64x121 S50000x121 [1] [0] [0] [1] [] []
  gather_S50000x121_S850000x1_S850000x121_1_0_n_n_0_1_1121_wf : GatherDims.WF S50000x121 S850000x1 S850000x121 [1] [0] [] [0] [] 1 ![1, 121]
  scatter_S50000x121_S850000x1_S850000x121_1_0_0_1_wf : ScatterDims.WF S50000x121 S850000x1 S850000x121 [1] [0] [0] 1

variable [Facts₀]

def dot_S50000x50_S50x64_S50000x64_1_0_0_1_n_n : DotDims S50000x50 S50x64 S50000x64 where
  lhsContracting := [1]
  rhsContracting := [0]
  lhsNonContracting := [0]
  rhsNonContracting := [1]
  lhsBatch := []
  rhsBatch := []
  wf := dot_S50000x50_S50x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x121_S50000x121_1_0_0_1_n_n : DotDims S50000x64 S64x121 S50000x121 where
  lhsContracting := [1]
  rhsContracting := [0]
  lhsNonContracting := [0]
  rhsNonContracting := [1]
  lhsBatch := []
  rhsBatch := []
  wf := dot_S50000x64_S64x121_S50000x121_1_0_0_1_n_n_wf
def gather_S50000x121_S850000x1_S850000x121_1_0_n_n_0_1_1121 : GatherDims S50000x121 S850000x1 S850000x121 where
  offsetDims := [1]
  collapsedSliceDims := [0]
  operandBatchingDims := []
  startIndicesBatchingDims := []
  startIndexMap := [0]
  indexVectorDim := 1
  sliceSizes := ![1, 121]
  wf := gather_S50000x121_S850000x1_S850000x121_1_0_n_n_0_1_1121_wf
def scatter_S50000x121_S850000x1_S850000x121_1_0_0_1 : ScatterDims S50000x121 S850000x1 S850000x121 where
  updateWindowDims := [1]
  insertedWindowDims := [0]
  scatterDimsToOperandDims := [0]
  indexVectorDim := 1
  wf := scatter_S50000x121_S850000x1_S850000x121_1_0_0_1_wf

class Facts : Prop extends Facts₀ where

variable [Facts]
-- ==== Proof.Spec.lean ====
/-
  One graph-convolution layer, and the two-layer network built from it, written index by index on the extended reals.

  Nodes are `Fin 50000`, edges `Fin 800000`. Row 0 of the integer array holds each edge's source word, row 1 its
  destination word. An edge `e` contributes to node `v` exactly when its destination word, read as a signed integer, is `v`
  (a destination outside `[0, 50000)` contributes nowhere). The source row an edge reads is its source word with a
  negative value shifted up by 50000 and the result clamped into `[0, 49999]`.

  With `deg v = (number of edges into v) + 1` and `c v = 1 / √(deg v)`, a layer sends the node features `xw` to
      out v f = c v · ( Σ_{e into v} y (src e) f  +  y v f ),      y u f = c u · xw u f,
  and the network is two such layers with a hyperbolic tangent between them, each fed by a matrix product.
-/
import Idealize.ShloMosaic.PureOps.Ideal
import Idealize.ShloMosaic.Lib.ValueIdx

noncomputable section

open scoped BigOperators

namespace Cert.Gcn

open Idealize.ShloMosaic Idealize.ShloMosaic.ValueIdx

/-- A start word with a negative value shifted up by the number of nodes: `w + 50000` when `w` is negative as a signed
    word, `w` otherwise. -/
def wrapWord (w : BitVec 32) : BitVec 32 :=
  Scalar.select (IntOp.cmpi .slt w 0#32) (IntOp.addi w 50000#32) w

/-- The row read for the start word `w`: the shifted word, read signed, clamped into `[0, 49999]`. -/
def rowOf (w : BitVec 32) : Fin 50000 := ⟨min (wrapWord w).toInt.toNat (50000 - 1), by omega⟩

/-- Edge `e`'s source word (row 0 of the edge array). -/
def srcWord (ei : IVec ⟨2, ![2, 800000]⟩ 32) (e : Fin 800000) : BitVec 32 := ei (ix2 (0 : Fin 2) e)
/-- Edge `e`'s destination word (row 1 of the edge array). -/
def dstWord (ei : IVec ⟨2, ![2, 800000]⟩ 32) (e : Fin 800000) : BitVec 32 := ei (ix2 (1 : Fin 2) e)

/-- The edges into node `v`: those whose destination word, read signed, is `v`. -/
def hits (ei : IVec ⟨2, ![2, 800000]⟩ 32) (v : Fin 50000) : Finset (Fin 800000) :=
  Finset.univ.filter fun e => (dstWord ei e).toInt = (v.val : ℤ)

/-- The float words `1.0` and `0.0` as extended reals. -/
def one : EReal := Ideal.ofBits .f32 0x3F800000#32
def zero : EReal := Ideal.ofBits .f32 0x00000000#32

/-- The degree of node `v` counting its self-loop: one per edge into `v`, plus one. -/
def deg (ei : IVec ⟨2, ![2, 800000]⟩ 32) (v : Fin 50000) : EReal := (zero + ∑ _e ∈ hits ei v, one) + one

/-- The normalisation `1 / √(deg v)`. -/
def dinv (ei : IVec ⟨2, ![2, 800000]⟩ 32) (v : Fin 50000) : EReal := Ideal.rsqrt (deg ei v)

/-- A matrix product with 50000 rows. -/
def mm {K C : Nat} (a : Fin 50000 → Fin K → EReal) (b : Fin K → Fin C → EReal) (v : Fin 50000) (f : Fin C) : EReal :=
  ∑ k : Fin K, a v k * b k f

/-- Node features scaled row by row. -/
def scaled {C : Nat} (c : Fin 50000 → EReal) (y : Fin 50000 → Fin C → EReal) (v : Fin 50000) (f : Fin C) : EReal :=
  c v * y v f

/-- One aggregation: `c v · (Σ_{e into v} y (src e) f + y v f)`. -/
def layer {C : Nat} (ei : IVec ⟨2, ![2, 800000]⟩ 32) (c : Fin 50000 → EReal) (y : Fin 50000 → Fin C → EReal)
    (v : Fin 50000) (f : Fin C) : EReal :=
  c v * ((zero + ∑ e ∈ hits ei v, y (rowOf (srcWord ei e)) f) + y v f)

/-- The hidden features: the hyperbolic tangent of the first layer. -/
def hidden (x : (⟨2, ![50000, 50]⟩ : Shape).Idx → EReal) (W1 : (⟨2, ![50, 64]⟩ : Shape).Idx → EReal)
    (ei : IVec ⟨2, ![2, 800000]⟩ 32) (v : Fin 50000) (f : Fin 64) : EReal :=
  Ideal.tanh (layer ei (dinv ei) (scaled (dinv ei) (mm (fun u k => x (ix2 u k)) (fun k g => W1 (ix2 k g)))) v f)

/-- The network's result. -/
def out (x : (⟨2, ![50000, 50]⟩ : Shape).Idx → EReal) (W1 : (⟨2, ![50, 64]⟩ : Shape).Idx → EReal)
    (W2 : (⟨2, ![64, 121]⟩ : Shape).Idx → EReal) (ei : IVec ⟨2, ![2, 800000]⟩ 32) :
    (⟨2, ![50000, 121]⟩ : Shape).Idx → EReal :=
  fun i => layer ei (dinv ei) (scaled (dinv ei) (mm (hidden x W1 ei) (fun k g => W2 (ix2 k g)))) (i 0) (i 1)

end Cert.Gcn

end
-- ==== Proof.Algebra.lean ====
/-
  The algebra behind the aggregation, on the extended reals.

  A non-negative finite factor distributes over sums of extended reals, even when terms are infinite. So with a factor
  `c ≥ 0`, `c ≠ ⊤`,
      Σ_e (a e · c) · y e + (c · c) · z  =  c · ( Σ_e a e · y e + c · z ),
  which is the step from "normalise every message by both endpoints" to "scale the sources once, sum, scale the target once".
  The factor here is `1 / √(deg v)` with `deg v` a positive whole number, hence a non-negative real.
  Also here: which row a start word reads when it is a node number.
-/
import proofs.«132743_j20882130993418_2_alg».proof.Proof.Spec

noncomputable section

open scoped BigOperators

namespace Cert.Gcn

open Idealize.ShloMosaic Idealize.ShloMosaic.ValueIdx

/-- The word `0.0` denotes `0`. -/
theorem zero_eq : zero = 0 := by
  unfold zero; simp [Ideal.ofBits, Ideal.ieee]

/-- The word `1.0` denotes `1`. -/
theorem one_eq : one = 1 := by
  unfold one; simp [Ideal.ofBits, Ideal.ieee, -EReal.coe_mul]; norm_num

/-- A non-negative finite factor moves inside a finite sum of extended reals. -/
theorem mul_sum_of_nonneg {E : Type} (s : Finset E) (c : EReal) (h0 : 0 ≤ c) (ht : c ≠ ⊤) (g : E → EReal) :
    c * ∑ e ∈ s, g e = ∑ e ∈ s, c * g e := by
  classical
  induction s using Finset.induction_on with
  | empty => simp
  | insert a s ha ih =>
    rw [Finset.sum_insert ha, Finset.sum_insert ha, EReal.left_distrib_of_nonneg_of_ne_top h0 ht, ih]

/-- Messages normalised by both endpoints and summed with the self-loop, against sources scaled once, summed, and the
    target scaled once. -/
theorem layer_law {E : Type} (s : Finset E) (c : EReal) (h0 : 0 ≤ c) (ht : c ≠ ⊤) (a y : E → EReal) (z : EReal) :
    zero + (∑ e ∈ s, (a e * c) * y e + (c * c) * z) = c * ((zero + ∑ e ∈ s, a e * y e) + c * z) := by
  rw [zero_eq, zero_add, zero_add, EReal.left_distrib_of_nonneg_of_ne_top h0 ht, mul_sum_of_nonneg s c h0 ht, mul_assoc]
  congr 1
  refine Finset.sum_congr rfl fun e _ => ?_
  rw [mul_comm (a e) c, mul_assoc]

/-- The degree is the positive whole number "edges into `v`, plus one". -/
theorem deg_eq (ei : IVec ⟨2, ![2, 800000]⟩ 32) (v : Fin 50000) :
    deg ei v = ((((hits ei v).card + 1 : ℕ) : ℝ) : EReal) := by
  unfold deg
  rw [zero_eq, one_eq, zero_add, Finset.sum_const, EReal.nsmul_eq_mul, mul_one, EReal.coe_natCast, Nat.cast_add, Nat.cast_one]

/-- The normalisation is a non-negative finite number. -/
theorem dinv_nonneg (ei : IVec ⟨2, ![2, 800000]⟩ 32) (v : Fin 50000) : 0 ≤ dinv ei v ∧ dinv ei v ≠ ⊤ := by
  have hr : (0 : ℝ) < (((hits ei v).card + 1 : ℕ) : ℝ) := by exact_mod_cast Nat.succ_pos _
  unfold dinv
  rw [deg_eq, Ideal.rsqrt_coe, if_neg (not_lt.2 hr.le), if_neg hr.ne']
  exact ⟨EReal.coe_nonneg.2 (inv_nonneg.2 (Real.sqrt_nonneg _)), EReal.coe_ne_top _⟩

/-- A word that reads, signed, as the node number `v` is neither shifted nor clamped: it reads row `v`. -/
theorem rowOf_of_toInt (w : BitVec 32) (v : Fin 50000) (h : w.toInt = (v.val : ℤ)) : rowOf w = v := by
  have hv := v.isLt
  have hns : w.slt 0#32 = false := by
    rw [BitVec.slt, decide_eq_false_iff_not, h]; simp
  have hw : wrapWord w = w := by
    unfold wrapWord IntOp.cmpi
    simp only [hns]
    rfl
  apply Fin.ext
  show min (wrapWord w).toInt.toNat (50000 - 1) = v.val
  rw [hw, h]
  omega

/-- The word holding the node number `u` reads, signed, as `u`. -/
theorem toInt_ofNat_node (u : Fin 50000) : (BitVec.ofNat 32 u.val).toInt = (u.val : ℤ) := by
  have hu := u.isLt
  have hn : (BitVec.ofNat 32 u.val).toNat = u.val := by
    rw [BitVec.toNat_ofNat]; exact Nat.mod_eq_of_lt (by omega)
  rw [BitVec.toInt_eq_toNat_of_lt (by rw [hn]; omega), hn]

/-- The word holding the node number `u` reads row `u`. -/
theorem rowOf_ofNat (u : Fin 50000) : rowOf (BitVec.ofNat 32 u.val) = u :=
  rowOf_of_toInt _ u (toInt_ofNat_node u)

end Cert.Gcn

end
-- ==== Proof.RefLayer.lean ====
/-
  The reference's way of writing a layer, reduced to the specification's.

  The reference appends one self-loop per node to the edge list: positions `0 … 799999` are the edges, position
  `800000 + u` is the loop `u → u`. A sum over the 850000 positions that land on node `v` is therefore the sum over the
  edges into `v` plus the single loop at `v`. On an edge into `v` the destination's normalisation is `c v`; on the loop both
  endpoints are `v`. The law of the algebra module then gives the specification's form.
-/
import proofs.«132743_j20882130993418_2_alg».proof.Proof.Spec
import proofs.«132743_j20882130993418_2_alg».proof.Proof.Algebra

noncomputable section

open scoped BigOperators

namespace Cert.Gcn

open Idealize.ShloMosaic Idealize.ShloMosaic.ValueIdx

/-- The position of edge `e` in the extended list. -/
def edgePos (e : Fin 800000) : Fin 850000 := ⟨e.val, by omega⟩
/-- The position of node `u`'s self-loop in the extended list. -/
def loopPos (u : Fin 50000) : Fin 850000 := ⟨800000 + u.val, by omega⟩

/-- A sum over the extended list is the sum over the edges plus the sum over the loops. -/
theorem sum_split (g : Fin 850000 → EReal) :
    ∑ j, g j = ∑ e : Fin 800000, g (edgePos e) + ∑ u : Fin 50000, g (loopPos u) :=
  Fin.sum_univ_add (a := 800000) (b := 50000) g

/-- The same for a sum restricted by a condition on the position. -/
theorem sum_filter_split (P : Fin 850000 → Prop) [DecidablePred P] (g : Fin 850000 → EReal) :
    ∑ j ∈ Finset.univ.filter P, g j
      = ∑ e ∈ Finset.univ.filter (fun e : Fin 800000 => P (edgePos e)), g (edgePos e)
        + ∑ u ∈ Finset.univ.filter (fun u : Fin 50000 => P (loopPos u)), g (loopPos u) := by
  simp only [Finset.sum_filter]
  exact sum_split _

/-- Exactly one loop lands on node `v`: its own. -/
theorem loops_into (v : Fin 50000) :
    (Finset.univ.filter fun u : Fin 50000 => ((u.val : ℤ) = (v.val : ℤ))) = {v} := by
  ext u
  simp only [Finset.mem_filter, Finset.mem_univ, true_and, Finset.mem_singleton, Nat.cast_inj]
  exact Fin.val_inj

/-- Counting one per position of the extended list that lands on `v` gives the degree. -/
theorem ref_deg_core (x3 : IVec ⟨2, ![2, 800000]⟩ 32) (W7 : Fin 850000 → BitVec 32)
    (h7l : ∀ e, W7 (edgePos e) = dstWord x3 e) (h7r : ∀ u : Fin 50000, W7 (loopPos u) = BitVec.ofNat 32 u.val)
    (v : Fin 50000) :
    zero + ∑ _j ∈ Finset.univ.filter (fun j => (W7 j).toInt = (v.val : ℤ)), one = deg x3 v := by
  rw [sum_filter_split]
  simp only [h7l, h7r, toInt_ofNat_node]
  rw [loops_into, Finset.sum_singleton, ← add_assoc]
  rfl

/-- The reference's layer: every position landing on `v` contributes its source row's features times both endpoints'
    normalisations. It is the specification's layer. -/
theorem ref_layer_core {C : Nat} (x3 : IVec ⟨2, ![2, 800000]⟩ 32) (xw : Fin 50000 → Fin C → EReal)
    (W6 W7 : Fin 850000 → BitVec 32)
    (h6l : ∀ e, W6 (edgePos e) = srcWord x3 e) (h6r : ∀ u : Fin 50000, W6 (loopPos u) = BitVec.ofNat 32 u.val)
    (h7l : ∀ e, W7 (edgePos e) = dstWord x3 e) (h7r : ∀ u : Fin 50000, W7 (loopPos u) = BitVec.ofNat 32 u.val)
    (v : Fin 50000) (f : Fin C) :
    zero + ∑ j ∈ Finset.univ.filter (fun j => (W7 j).toInt = (v.val : ℤ)),
        (dinv x3 (rowOf (W6 j)) * dinv x3 (rowOf (W7 j))) * xw (rowOf (W6 j)) f
      = layer x3 (dinv x3) (scaled (dinv x3) xw) v f := by
  rw [sum_filter_split]
  simp only [h6l, h6r, h7l, h7r, toInt_ofNat_node, rowOf_ofNat]
  rw [loops_into, Finset.sum_singleton]
  have h1 : ∑ e ∈ Finset.univ.filter (fun e : Fin 800000 => (dstWord x3 e).toInt = (v.val : ℤ)),
        (dinv x3 (rowOf (srcWord x3 e)) * dinv x3 (rowOf (dstWord x3 e))) * xw (rowOf (srcWord x3 e)) f
      = ∑ e ∈ hits x3 v, (dinv x3 (rowOf (srcWord x3 e)) * dinv x3 v) * xw (rowOf (srcWord x3 e)) f :=
    Finset.sum_congr rfl fun e he => by rw [rowOf_of_toInt _ v (Finset.mem_filter.1 he).2]
  rw [h1]
  exact layer_law (hits x3 v) (dinv x3 v) (dinv_nonneg x3 v).1 (dinv_nonneg x3 v).2
    (fun e => dinv x3 (rowOf (srcWord x3 e))) (fun e => xw (rowOf (srcWord x3 e)) f) (xw v f)

end Cert.Gcn

end
-- ==== Proof.RefWords.lean ====
/-
  The reference program's integer stages and matrix products, read at an index.

  The extended source list holds edge `e`'s source word at position `e` and the node number `u` at position `800000 + u`;
  the extended destination list likewise with destination words. Each "shift a negative index up" stage is `wrapWord` of
  the word it reads, and each matrix product is `mm` of its operands.
-/
import proofs.«132743_j20882130993418_2_alg».proof.Proof.Gen.ReferenceIdeal.Read
import proofs.«132743_j20882130993418_2_alg».proof.Proof.Spec
import proofs.«132743_j20882130993418_2_alg».proof.Proof.RefLayer
import Idealize.ShloMosaic.Lib.Pipeline.Value
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Gen Cert.ReferenceIdeal.Read Cert.Gcn

variable (x0 : (⟨S50000x50, .f32⟩ : BufTy).Contents (Elt Ideal)) (x1 : (⟨S50x64, .f32⟩ : BufTy).Contents (Elt Ideal))
  (x2 : (⟨S64x121, .f32⟩ : BufTy).Contents (Elt Ideal)) (x3 : (⟨S2x800000, .i32⟩ : BufTy).Contents (Elt Ideal))

/-- The flattened row 0 of the edge array at `e` is edge `e`'s source word. -/
theorem v1_at (e : Fin 800000) : val_main_v1 (F := Ideal) x3 (ix1 e) = srcWord x3 e := by
  rw [val_main_v1_apply, val_main_v0_apply]
  unfold srcWord
  refine congrArg x3 (funext fun a => ?_)
  match a with
  | ⟨0, _⟩ => rfl
  | ⟨1, _⟩ => exact Fin.ext (Nat.mod_eq_of_lt e.isLt)

/-- The flattened row 1 of the edge array at `e` is edge `e`'s destination word. -/
theorem v3_at (e : Fin 800000) : val_main_v3 (F := Ideal) x3 (ix1 e) = dstWord x3 e := by
  rw [val_main_v3_apply, val_main_v2_apply]
  unfold dstWord
  refine congrArg x3 (funext fun a => ?_)
  match a with
  | ⟨0, _⟩ => rfl
  | ⟨1, _⟩ => exact Fin.ext (Nat.mod_eq_of_lt e.isLt)

/-- A list followed by the node numbers, at an edge position: the list's entry. -/
theorem concat_edge (y : (⟨S800000, .i32⟩ : BufTy).Contents (Elt Ideal)) (z : (⟨S50000, .i32⟩ : BufTy).Contents (Elt Ideal))
    (e : Fin 800000) :
    concatenate S850000 0 [⟨S800000, y⟩, ⟨S50000, z⟩] concatenates_S800000_S50000_S850000_d0 (ix1 (edgePos e)) = y (ix1 e) :=
  concatenate_pair_apply_left (0 : Fin S850000.rank) y z concatenates_S800000_S50000_S850000_d0 (ix1 (edgePos e)) rfl (ix1 e)
    (fun b => by match b with | ⟨0, _⟩ => rfl)

/-- The same at a loop position: the second list's entry. -/
theorem concat_loop (y : (⟨S800000, .i32⟩ : BufTy).Contents (Elt Ideal)) (z : (⟨S50000, .i32⟩ : BufTy).Contents (Elt Ideal))
    (u : Fin 50000) :
    concatenate S850000 0 [⟨S800000, y⟩, ⟨S50000, z⟩] concatenates_S800000_S50000_S850000_d0 (ix1 (loopPos u)) = z (ix1 u) :=
  concatenate_pair_apply_right (0 : Fin S850000.rank) y z concatenates_S800000_S50000_S850000_d0 (ix1 (loopPos u)) rfl rfl (ix1 u)
    (fun b hb => by match b with | ⟨0, _⟩ => exact absurd rfl hb)
    (by show u.val + 800000 = 800000 + u.val; omega)

/-! ### First layer's lists -/

theorem v6_edge (e : Fin 800000) : val_main_v6 (F := Ideal) x3 (ix1 (edgePos e)) = srcWord x3 e := by
  unfold val_main_v6; rw [concat_edge]; exact v1_at x3 e
theorem v6_loop (u : Fin 50000) : val_main_v6 (F := Ideal) x3 (ix1 (loopPos u)) = BitVec.ofNat 32 u.val := by
  unfold val_main_v6; rw [concat_loop]; rfl
theorem v7_edge (e : Fin 800000) : val_main_v7 (F := Ideal) x3 (ix1 (edgePos e)) = dstWord x3 e := by
  unfold val_main_v7; rw [concat_edge]; exact v3_at x3 e
theorem v7_loop (u : Fin 50000) : val_main_v7 (F := Ideal) x3 (ix1 (loopPos u)) = BitVec.ofNat 32 u.val := by
  unfold val_main_v7; rw [concat_loop]; rfl

theorem v17_at (j : Fin 850000) : val_main_v17 (F := Ideal) x3 (ix1 j) = wrapWord (val_main_v6 (F := Ideal) x3 (ix1 j)) := by
  rw [val_main_v17_apply, val_main_v14_apply, val_main_v16_apply, val_main_v13_apply, val_main_v15_apply, val_main_c_apply,
    val_main_c_1_apply]
  rfl
theorem v24_at (j : Fin 850000) : val_main_v24 (F := Ideal) x3 (ix1 j) = wrapWord (val_main_v7 (F := Ideal) x3 (ix1 j)) := by
  rw [val_main_v24_apply, val_main_v21_apply, val_main_v23_apply, val_main_v20_apply, val_main_v22_apply, val_main_c_2_apply,
    val_main_c_3_apply]
  rfl
theorem v33_at (j : Fin 850000) : val_main_v33 (F := Ideal) x3 (ix1 j) = wrapWord (val_main_v6 (F := Ideal) x3 (ix1 j)) := by
  rw [val_main_v33_apply, val_main_v30_apply, val_main_v32_apply, val_main_v29_apply, val_main_v31_apply, val_main_c_4_apply,
    val_main_c_5_apply]
  rfl

/-- The first matrix product. -/
theorem v4_at (v : Fin 50000) (f : Fin 64) :
    val_main_v4 (F := Ideal) x0 x1 (ix2 v f) = mm (fun u k => x0 (ix2 u k)) (fun k g => x1 (ix2 k g)) v f := by
  rw [val_main_v4_apply]
  unfold mm
  refine Finset.sum_congr rfl fun k _ => ?_
  have el : lidx_main_v4 (ix2 v f) k = ix2 v k := funext fun a => by match a with | ⟨0, _⟩ => rfl | ⟨1, _⟩ => rfl
  have er : ridx_main_v4 (ix2 v f) k = ix2 k f := funext fun a => by match a with | ⟨0, _⟩ => rfl | ⟨1, _⟩ => rfl
  rw [el, er]

/-! ### Second layer's lists -/

theorem v44_edge (e : Fin 800000) : val_main_v44 (F := Ideal) x3 (ix1 (edgePos e)) = srcWord x3 e := by
  unfold val_main_v44; rw [concat_edge]; exact v1_at x3 e
theorem v44_loop (u : Fin 50000) : val_main_v44 (F := Ideal) x3 (ix1 (loopPos u)) = BitVec.ofNat 32 u.val := by
  unfold val_main_v44; rw [concat_loop]; rfl
theorem v45_edge (e : Fin 800000) : val_main_v45 (F := Ideal) x3 (ix1 (edgePos e)) = dstWord x3 e := by
  unfold val_main_v45; rw [concat_edge]; exact v3_at x3 e
theorem v45_loop (u : Fin 50000) : val_main_v45 (F := Ideal) x3 (ix1 (loopPos u)) = BitVec.ofNat 32 u.val := by
  unfold val_main_v45; rw [concat_loop]; rfl

theorem v55_at (j : Fin 850000) : val_main_v55 (F := Ideal) x3 (ix1 j) = wrapWord (val_main_v44 (F := Ideal) x3 (ix1 j)) := by
  rw [val_main_v55_apply, val_main_v52_apply, val_main_v54_apply, val_main_v51_apply, val_main_v53_apply, val_main_c_9_apply,
    val_main_c_10_apply]
  rfl
theorem v62_at (j : Fin 850000) : val_main_v62 (F := Ideal) x3 (ix1 j) = wrapWord (val_main_v45 (F := Ideal) x3 (ix1 j)) := by
  rw [val_main_v62_apply, val_main_v59_apply, val_main_v61_apply, val_main_v58_apply, val_main_v60_apply, val_main_c_11_apply,
    val_main_c_12_apply]
  rfl
theorem v71_at (j : Fin 850000) : val_main_v71 (F := Ideal) x3 (ix1 j) = wrapWord (val_main_v44 (F := Ideal) x3 (ix1 j)) := by
  rw [val_main_v71_apply, val_main_v68_apply, val_main_v70_apply, val_main_v67_apply, val_main_v69_apply, val_main_c_13_apply,
    val_main_c_14_apply]
  rfl

/-- The second matrix product, of the first layer's hyperbolic tangent. -/
theorem v42_at (v : Fin 50000) (f : Fin 121) :
    val_main_v42 (F := Ideal) x0 x1 x2 x3 (ix2 v f)
      = mm (fun u k => val_main_v41 (F := Ideal) x0 x1 x3 (ix2 u k)) (fun k g => x2 (ix2 k g)) v f := by
  rw [val_main_v42_apply]
  unfold mm
  refine Finset.sum_congr rfl fun k _ => ?_
  have el : lidx_main_v42 (ix2 v f) k = ix2 v k := funext fun a => by match a with | ⟨0, _⟩ => rfl | ⟨1, _⟩ => rfl
  have er : ridx_main_v42 (ix2 v f) k = ix2 k f := funext fun a => by match a with | ⟨0, _⟩ => rfl | ⟨1, _⟩ => rfl
  rw [el, er]

end Cert.ReferenceIdeal.RefValue

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.GatherRows.lean ====
/-
  A gather over 50000 rows whose start word is a shifted word reads the row `rowOf` names.

  The gather clamps its start index into `[0, 49999]` after reading it signed; when the start word is `wrapWord w` that is
  by definition `rowOf w`.
-/
import proofs.«132743_j20882130993418_2_alg».proof.Proof.Spec
import proofs.«132743_j20882130993418_2_alg».proof.Proof.LibScatterGather

noncomputable section

namespace Cert.Gcn

open Idealize.ShloMosaic Idealize.ShloMosaic.ValueIdx Cert.Lib.ScatterGather

/-- A flat gather at position `j` whose start word is `wrapWord w` reads entry `rowOf w`. -/
theorem gather_flat_row {α : Type} {M : Nat}
    (wf : GatherDims.WF ⟨1, ![50000]⟩ ⟨2, ![M, 1]⟩ ⟨1, ![M]⟩ [] [0] [] [0] [] 1 ![1])
    (x : (⟨1, ![50000]⟩ : Shape).Idx → α) (idx : IVec ⟨2, ![M, 1]⟩ 32) (j : Fin M) (w : BitVec 32)
    (hw : idx (ix2 j (0 : Fin 1)) = wrapWord w) :
    Host.gather (flatGatherDims 50000 M wf) x idx (ix1 j) = x (ix1 (rowOf w)) := by
  rw [gather_flat_apply (N := 50000) (by decide)]
  refine congrArg (fun r : Fin 50000 => x (ix1 r)) (Fin.ext ?_)
  show min (idx (ix2 j (0 : Fin 1))).toInt.toNat (50000 - 1) = min (wrapWord w).toInt.toNat (50000 - 1)
  rw [hw]

/-- A row gather at position `(j, f)` whose start word is `wrapWord w` reads entry `(rowOf w, f)`. -/
theorem gather_rows_row {α : Type} {M C : Nat}
    (wf : GatherDims.WF ⟨2, ![50000, C]⟩ ⟨2, ![M, 1]⟩ ⟨2, ![M, C]⟩ [1] [0] [] [0] [] 1 ![1, C])
    (x : (⟨2, ![50000, C]⟩ : Shape).Idx → α) (idx : IVec ⟨2, ![M, 1]⟩ 32) (j : Fin M) (f : Fin C) (w : BitVec 32)
    (hw : idx (ix2 j (0 : Fin 1)) = wrapWord w) :
    Host.gather (rowGatherDims 50000 M C wf) x idx (ix2 j f) = x (ix2 (rowOf w) f) := by
  rw [gather_rows_apply (N := 50000) (by decide)]
  refine congrArg (fun r : Fin 50000 => x (ix2 r f)) (Fin.ext ?_)
  show min (idx (ix2 j (0 : Fin 1))).toInt.toNat (50000 - 1) = min (wrapWord w).toInt.toNat (50000 - 1)
  rw [hw]

end Cert.Gcn

end
-- ==== Proof.RefChain.lean ====
/-
  The reference program is the specification.

  Stage by stage: scattering ones at the extended destination list gives the degree; its reciprocal square root the
  normalisation; the two gathers of it and the gather of the features give each position's message; scattering the messages
  at the extended destination list gives, by the reference-layer identity, the specification's layer. Twice, with a
  hyperbolic tangent and a matrix product between.
-/
import proofs.«132743_j20882130993418_2_alg».proof.Proof.Gen.ReferenceIdeal.Read
import proofs.«132743_j20882130993418_2_alg».proof.Proof.Spec
import proofs.«132743_j20882130993418_2_alg».proof.Proof.Algebra
import proofs.«132743_j20882130993418_2_alg».proof.Proof.RefLayer
import proofs.«132743_j20882130993418_2_alg».proof.Proof.RefWords
import proofs.«132743_j20882130993418_2_alg».proof.Proof.LibScatterGather
import proofs.«132743_j20882130993418_2_alg».proof.Proof.GatherRows

noncomputable section

open scoped BigOperators

namespace Cert.ReferenceIdeal.RefValue

open Idealize.ShloMosaic Idealize.ShloMosaic.ValueIdx Cert.ReferenceIdeal Cert.ReferenceIdeal.Gen Cert.ReferenceIdeal.Read Cert.Gcn
open Cert.Lib.ScatterGather

variable (x0 : (⟨S50000x50, .f32⟩ : BufTy).Contents (Elt Ideal)) (x1 : (⟨S50x64, .f32⟩ : BufTy).Contents (Elt Ideal))
  (x2 : (⟨S64x121, .f32⟩ : BufTy).Contents (Elt Ideal)) (x3 : (⟨S2x800000, .i32⟩ : BufTy).Contents (Elt Ideal))

/-! ### Layer 1: the degree, the normalisation, the messages, the aggregation -/

/-- Scattering ones at the extended destination list counts, at node `v`, the positions landing on `v`: the degree. -/
theorem v11_at (v : Fin 50000) : val_main_v11 (F := Ideal) x3 (ix1 v) = deg x3 v := by
  unfold val_main_v11
  rw [show scatter_S50000_S850000x1_S850000_n_0_0_1 = flatScatterDims 50000 850000 _ from rfl, scatterAdd_flat_apply]
  have hx : val_main_v9 (F := Ideal) (ix1 v) = zero := by rw [val_main_v9_apply, val_main_cst_0_apply]; rfl
  have hu : ∀ j : Fin 850000, val_main_v8 (F := Ideal) (ix1 j) = one := fun j => by
    rw [val_main_v8_apply, val_main_cst_apply]; rfl
  have hi : ∀ j : Fin 850000, val_main_v10 (F := Ideal) x3 (ix2 j (0 : Fin 1)) = val_main_v7 (F := Ideal) x3 (ix1 j) := fun j => by
    rw [val_main_v10_apply]; exact congrArg _ (funext fun a => by match a with | ⟨0, _⟩ => rfl)
  simp only [hx, hu, hi]
  exact ref_deg_core x3 (fun j => val_main_v7 (F := Ideal) x3 (ix1 j)) (v7_edge x3) (v7_loop x3) v

/-- Its reciprocal square root is the normalisation. -/
theorem v12_at (v : Fin 50000) : val_main_v12 (F := Ideal) x3 (ix1 v) = dinv x3 v := by
  rw [val_main_v12_apply, Ideal.hostUnary_rsqrt_def, v11_at]; rfl

/-- The normalisation gathered at the extended source list. -/
theorem v19_at (j : Fin 850000) :
    val_main_v19 (F := Ideal) x3 (ix1 j) = dinv x3 (rowOf (val_main_v6 (F := Ideal) x3 (ix1 j))) := by
  have hi : val_main_v18 (F := Ideal) x3 (ix2 j (0 : Fin 1)) = wrapWord (val_main_v6 (F := Ideal) x3 (ix1 j)) := by
    rw [val_main_v18_apply]
    exact (congrArg _ (funext fun a => by match a with | ⟨0, _⟩ => rfl)).trans (v17_at x3 j)
  unfold val_main_v19
  rw [show gather_S50000_S850000x1_S850000_n_0_n_n_0_1_1 = flatGatherDims 50000 850000 _ from rfl]
  exact (gather_flat_row _ _ _ j _ hi).trans (v12_at x3 _)

/-- The normalisation gathered at the extended destination list. -/
theorem v26_at (j : Fin 850000) :
    val_main_v26 (F := Ideal) x3 (ix1 j) = dinv x3 (rowOf (val_main_v7 (F := Ideal) x3 (ix1 j))) := by
  have hi : val_main_v25 (F := Ideal) x3 (ix2 j (0 : Fin 1)) = wrapWord (val_main_v7 (F := Ideal) x3 (ix1 j)) := by
    rw [val_main_v25_apply]
    exact (congrArg _ (funext fun a => by match a with | ⟨0, _⟩ => rfl)).trans (v24_at x3 j)
  unfold val_main_v26
  rw [show gather_S50000_S850000x1_S850000_n_0_n_n_0_1_1 = flatGatherDims 50000 850000 _ from rfl]
  exact (gather_flat_row _ _ _ j _ hi).trans (v12_at x3 _)

/-- The features gathered at the extended source list. -/
theorem v35_at (j : Fin 850000) (f : Fin 64) :
    val_main_v35 (F := Ideal) x0 x1 x3 (ix2 j f)
      = val_main_v4 (F := Ideal) x0 x1 (ix2 (rowOf (val_main_v6 (F := Ideal) x3 (ix1 j))) f) := by
  have hi : val_main_v34 (F := Ideal) x3 (ix2 j (0 : Fin 1)) = wrapWord (val_main_v6 (F := Ideal) x3 (ix1 j)) := by
    rw [val_main_v34_apply]
    exact (congrArg _ (funext fun a => by match a with | ⟨0, _⟩ => rfl)).trans (v33_at x3 j)
  unfold val_main_v35
  rw [show gather_S50000x64_S850000x1_S850000x64_1_0_n_n_0_1_164 = rowGatherDims 50000 850000 64 _ from rfl]
  exact gather_rows_row _ _ _ j f _ hi

/-- A message: the source row's features times both endpoints' normalisations. -/
theorem v37_at (j : Fin 850000) (f : Fin 64) :
    val_main_v37 (F := Ideal) x0 x1 x3 (ix2 j f)
      = (dinv x3 (rowOf (val_main_v6 (F := Ideal) x3 (ix1 j))) * dinv x3 (rowOf (val_main_v7 (F := Ideal) x3 (ix1 j))))
        * val_main_v4 (F := Ideal) x0 x1 (ix2 (rowOf (val_main_v6 (F := Ideal) x3 (ix1 j))) f) := by
  have e36 : idx_main_v36 (ix2 j f) = ix2 j (0 : Fin 1) := funext fun a => by match a with | ⟨0, _⟩ => rfl | ⟨1, _⟩ => rfl
  have e28 : idx_main_v28 (ix2 j (0 : Fin 1)) = ix1 j := funext fun a => by match a with | ⟨0, _⟩ => rfl
  rw [val_main_v37_apply, Ideal.mulf_def, val_main_v36_apply, e36, val_main_v28_apply, e28, val_main_v27_apply,
    Ideal.mulf_def, v19_at, v26_at, v35_at]

/-- The aggregation is the specification's layer. -/
theorem v40_at (v : Fin 50000) (f : Fin 64) :
    val_main_v40 (F := Ideal) x0 x1 x3 (ix2 v f)
      = layer x3 (dinv x3) (scaled (dinv x3) (fun u g => val_main_v4 (F := Ideal) x0 x1 (ix2 u g))) v f := by
  unfold val_main_v40
  rw [show scatter_S50000x64_S850000x1_S850000x64_1_0_0_1 = rowScatterDims 50000 850000 64 _ from rfl, scatterAdd_rows_apply]
  have hx : val_main_v38 (F := Ideal) (ix2 v f) = zero := by rw [val_main_v38_apply, val_main_cst_6_apply]; rfl
  have hi : ∀ j : Fin 850000, val_main_v39 (F := Ideal) x3 (ix2 j (0 : Fin 1)) = val_main_v7 (F := Ideal) x3 (ix1 j) := fun j => by
    rw [val_main_v39_apply]; exact congrArg _ (funext fun a => by match a with | ⟨0, _⟩ => rfl)
  simp only [hx, hi, v37_at]
  exact ref_layer_core x3 (fun u g => val_main_v4 (F := Ideal) x0 x1 (ix2 u g)) (fun j => val_main_v6 (F := Ideal) x3 (ix1 j))
    (fun j => val_main_v7 (F := Ideal) x3 (ix1 j)) (v6_edge x3) (v6_loop x3) (v7_edge x3) (v7_loop x3) v f

/-! ### Layer 2: the degree, the normalisation, the messages, the aggregation -/

/-- Scattering ones at the extended destination list counts, at node `v`, the positions landing on `v`: the degree. -/
theorem v49_at (v : Fin 50000) : val_main_v49 (F := Ideal) x3 (ix1 v) = deg x3 v := by
  unfold val_main_v49
  rw [show scatter_S50000_S850000x1_S850000_n_0_0_1 = flatScatterDims 50000 850000 _ from rfl, scatterAdd_flat_apply]
  have hx : val_main_v47 (F := Ideal) (ix1 v) = zero := by rw [val_main_v47_apply, val_main_cst_8_apply]; rfl
  have hu : ∀ j : Fin 850000, val_main_v46 (F := Ideal) (ix1 j) = one := fun j => by
    rw [val_main_v46_apply, val_main_cst_7_apply]; rfl
  have hi : ∀ j : Fin 850000, val_main_v48 (F := Ideal) x3 (ix2 j (0 : Fin 1)) = val_main_v45 (F := Ideal) x3 (ix1 j) := fun j => by
    rw [val_main_v48_apply]; exact congrArg _ (funext fun a => by match a with | ⟨0, _⟩ => rfl)
  simp only [hx, hu, hi]
  exact ref_deg_core x3 (fun j => val_main_v45 (F := Ideal) x3 (ix1 j)) (v45_edge x3) (v45_loop x3) v

/-- Its reciprocal square root is the normalisation. -/
theorem v50_at (v : Fin 50000) : val_main_v50 (F := Ideal) x3 (ix1 v) = dinv x3 v := by
  rw [val_main_v50_apply, Ideal.hostUnary_rsqrt_def, v49_at]; rfl

/-- The normalisation gathered at the extended source list. -/
theorem v57_at (j : Fin 850000) :
    val_main_v57 (F := Ideal) x3 (ix1 j) = dinv x3 (rowOf (val_main_v44 (F := Ideal) x3 (ix1 j))) := by
  have hi : val_main_v56 (F := Ideal) x3 (ix2 j (0 : Fin 1)) = wrapWord (val_main_v44 (F := Ideal) x3 (ix1 j)) := by
    rw [val_main_v56_apply]
    exact (congrArg _ (funext fun a => by match a with | ⟨0, _⟩ => rfl)).trans (v55_at x3 j)
  unfold val_main_v57
  rw [show gather_S50000_S850000x1_S850000_n_0_n_n_0_1_1 = flatGatherDims 50000 850000 _ from rfl]
  exact (gather_flat_row _ _ _ j _ hi).trans (v50_at x3 _)

/-- The normalisation gathered at the extended destination list. -/
theorem v64_at (j : Fin 850000) :
    val_main_v64 (F := Ideal) x3 (ix1 j) = dinv x3 (rowOf (val_main_v45 (F := Ideal) x3 (ix1 j))) := by
  have hi : val_main_v63 (F := Ideal) x3 (ix2 j (0 : Fin 1)) = wrapWord (val_main_v45 (F := Ideal) x3 (ix1 j)) := by
    rw [val_main_v63_apply]
    exact (congrArg _ (funext fun a => by match a with | ⟨0, _⟩ => rfl)).trans (v62_at x3 j)
  unfold val_main_v64
  rw [show gather_S50000_S850000x1_S850000_n_0_n_n_0_1_1 = flatGatherDims 50000 850000 _ from rfl]
  exact (gather_flat_row _ _ _ j _ hi).trans (v50_at x3 _)

/-- The features gathered at the extended source list. -/
theorem v73_at (j : Fin 850000) (f : Fin 121) :
    val_main_v73 (F := Ideal) x0 x1 x2 x3 (ix2 j f)
      = val_main_v42 (F := Ideal) x0 x1 x2 x3 (ix2 (rowOf (val_main_v44 (F := Ideal) x3 (ix1 j))) f) := by
  have hi : val_main_v72 (F := Ideal) x3 (ix2 j (0 : Fin 1)) = wrapWord (val_main_v44 (F := Ideal) x3 (ix1 j)) := by
    rw [val_main_v72_apply]
    exact (congrArg _ (funext fun a => by match a with | ⟨0, _⟩ => rfl)).trans (v71_at x3 j)
  unfold val_main_v73
  rw [show gather_S50000x121_S850000x1_S850000x121_1_0_n_n_0_1_1121 = rowGatherDims 50000 850000 121 _ from rfl]
  exact gather_rows_row _ _ _ j f _ hi

/-- A message: the source row's features times both endpoints' normalisations. -/
theorem v75_at (j : Fin 850000) (f : Fin 121) :
    val_main_v75 (F := Ideal) x0 x1 x2 x3 (ix2 j f)
      = (dinv x3 (rowOf (val_main_v44 (F := Ideal) x3 (ix1 j))) * dinv x3 (rowOf (val_main_v45 (F := Ideal) x3 (ix1 j))))
        * val_main_v42 (F := Ideal) x0 x1 x2 x3 (ix2 (rowOf (val_main_v44 (F := Ideal) x3 (ix1 j))) f) := by
  have e36 : idx_main_v74 (ix2 j f) = ix2 j (0 : Fin 1) := funext fun a => by match a with | ⟨0, _⟩ => rfl | ⟨1, _⟩ => rfl
  have e28 : idx_main_v66 (ix2 j (0 : Fin 1)) = ix1 j := funext fun a => by match a with | ⟨0, _⟩ => rfl
  rw [val_main_v75_apply, Ideal.mulf_def, val_main_v74_apply, e36, val_main_v66_apply, e28, val_main_v65_apply,
    Ideal.mulf_def, v57_at, v64_at, v73_at]

/-- The aggregation is the specification's layer. -/
theorem v78_at (v : Fin 50000) (f : Fin 121) :
    val_main_v78 (F := Ideal) x0 x1 x2 x3 (ix2 v f)
      = layer x3 (dinv x3) (scaled (dinv x3) (fun u g => val_main_v42 (F := Ideal) x0 x1 x2 x3 (ix2 u g))) v f := by
  unfold val_main_v78
  rw [show scatter_S50000x121_S850000x1_S850000x121_1_0_0_1 = rowScatterDims 50000 850000 121 _ from rfl, scatterAdd_rows_apply]
  have hx : val_main_v76 (F := Ideal) (ix2 v f) = zero := by rw [val_main_v76_apply, val_main_cst_15_apply]; rfl
  have hi : ∀ j : Fin 850000, val_main_v77 (F := Ideal) x3 (ix2 j (0 : Fin 1)) = val_main_v45 (F := Ideal) x3 (ix1 j) := fun j => by
    rw [val_main_v77_apply]; exact congrArg _ (funext fun a => by match a with | ⟨0, _⟩ => rfl)
  simp only [hx, hi, v75_at]
  exact ref_layer_core x3 (fun u g => val_main_v42 (F := Ideal) x0 x1 x2 x3 (ix2 u g)) (fun j => val_main_v44 (F := Ideal) x3 (ix1 j))
    (fun j => val_main_v45 (F := Ideal) x3 (ix1 j)) (v44_edge x3) (v44_loop x3) (v45_edge x3) (v45_loop x3) v f

/-! ### The whole program -/

/-- The first layer's hyperbolic tangent is the specification's hidden features. -/
theorem v41_at (v : Fin 50000) (f : Fin 64) : val_main_v41 (F := Ideal) x0 x1 x3 (ix2 v f) = Gcn.hidden x0 x1 x3 v f := by
  rw [val_main_v41_apply, Ideal.hostUnary_tanh_def, v40_at]
  unfold Gcn.hidden
  refine congrArg Ideal.tanh (congrArg (fun y => layer x3 (dinv x3) (scaled (dinv x3) y) v f) ?_)
  funext u g
  exact v4_at x0 x1 u g

/-- The reference's result is the specification's. -/
theorem ref_is_out : val_main_v78 (F := Ideal) x0 x1 x2 x3 = out x0 x1 x2 x3 := by
  funext i
  obtain ⟨v, f, rfl⟩ : ∃ (v : Fin 50000) (f : Fin 121), i = ix2 v f := ⟨i 0, i 1, eq_ix2 i⟩
  rw [v78_at]
  unfold out
  refine congrArg (fun y => layer x3 (dinv x3) (scaled (dinv x3) y) v f) ?_
  funext u g
  rw [v42_at]
  refine congrArg (fun a => mm a (fun k g => x2 (ix2 k g)) u g) ?_
  funext w k
  exact v41_at x0 x1 x3 w k

end Cert.ReferenceIdeal.RefValue

end
-- ==== Proof.KernelRun.lean ====
import proofs.«132743_j20882130993418_2_alg».proof.Proof.Gen.KernelIdeal.Frame

/-! # The idealized kernel program's run, its result buffer named

`run_named` is the frame statement of the program with one more conjunct: core `c`'s result buffer ends at the last
boundary's contents `Gen.W5 m ρ c` read at the result's reference. The remaining sections read those contents back
through @main's host stretches as pure functions of the launch memory and of what the two regions leave. -/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- At the compiled mesh, from any memory with zero counters, every weakly fair execution of @main on the TensorCores
    terminates, nothing faulting, and in every final state each core's result buffer holds the last boundary's
    contents `Gen.W5 m ρ c` at the result's reference, the four argument arrays as launched. -/
theorem run_named : θ_run defs (onTc (τ := τ) (main (F := F))) ⟨m, fun _ => 0, ρ⟩ (fun r => ∀ c : Dev nD,
      r.2.mem ((c.tc : Thread nD τ).loc main_v42) = Gen.W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (Gen.pdats m ρ) () cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W5 m ρ c) s')
      isplitl [Hh] <;> iassumption)
    (hQ := fun s h c =>
      ⟨h c _ (Gen.mem_uc main_v42 (by decide)),
       (h c _ (Gen.mem_uc main_arg0 (by decide))).trans (Gen.W5_main_arg0 m ρ c),
       (h c _ (Gen.mem_uc main_arg1 (by decide))).trans (Gen.W5_main_arg1 m ρ c),
       (h c _ (Gen.mem_uc main_arg2 (by decide))).trans (Gen.W5_main_arg2 m ρ c),
       (h c _ (Gen.mem_uc main_arg3 (by decide))).trans (Gen.W5_main_arg3 m ρ c)⟩)

end Cert.KernelIdeal.RunValue

end
-- ==== Proof.KernelFold.lean ====
import proofs.«132743_j20882130993418_2_alg».proof.Proof.Gen.KernelIdeal.Frame

/-! # The buffer contents at @main's segment boundaries, read back through the host stretches

The contents `Gen.W1 … Gen.W5` are folds of the printed host operations from the launch memory. Here each buffer a
region reads, and the result buffer, is written as a pure function of the edge array `x3` (the fourth argument), of
the launch memory and of what the two regions leave in their output arrays: the composition of the printed
operations, in the printed spelling. -/

set_option maxRecDepth 16384

noncomputable section

namespace Cert.KernelIdeal.RunValue

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F]

/-! ## The host stretches as pure functions of the edge array -/

/-- The edges' sources: row 0 of the edge array, as a vector. -/
def srcV (x3 : IVec S2x800000 32) : IVec S800000 32 :=
  shapeCast _ (extractStridedSlice S1x800000 ![0, 0] x3 slices_S2x800000_S1x800000_0_0) shapeCasts_S1x800000_S800000
/-- The edges' destinations: row 1 of the edge array, as a vector. -/
def dstV (x3 : IVec S2x800000 32) : IVec S800000 32 :=
  shapeCast _ (extractStridedSlice S1x800000 ![1, 0] x3 slices_S2x800000_S1x800000_1_0) shapeCasts_S1x800000_S800000
/-- The inverse square root of each node's degree plus one: ones scattered at the destinations into zeros, plus
    one, `rsqrt`. -/
def dinvV (x3 : IVec S2x800000 32) : FVec F S50000 .f32 :=
  Host.rsqrt (addf
    (Host.scatterAdd scatter_S50000_S800000x1_S800000_n_0_0_1
      (broadcastInDim S50000 ![] bcast_S_S50000 (constant (F := F) S_ .f32 0x00000000#32))
      (broadcastInDim S800000x1 ![0] bcast_S800000_S800000x1_0 (dstV x3))
      (broadcastInDim S800000 ![] bcast_S_S800000 (constant (F := F) S_ .f32 0x3F800000#32)))
    (broadcastInDim S50000 ![] bcast_S_S50000 (constant (F := F) S_ .f32 0x3F800000#32)))
/-- The same as a column. -/
def dinvCol (x3 : IVec S2x800000 32) : FVec F S50000x1 .f32 :=
  shapeCast _ (dinvV (F := F) x3) shapeCasts_S50000_S50000x1
/-- The sources as gather indices: a negative one wrapped by the node count, as a column. -/
def wrapV (x3 : IVec S2x800000 32) : IVec S800000x1 32 :=
  broadcastInDim S800000x1 ![0] bcast_S800000_S800000x1_0
    (select (cmpi .slt (srcV x3) (broadcastInDim S800000 ![] bcast_S_S800000 (constantI S_ 32 0#32)))
      (addi (srcV x3) (broadcastInDim S800000 ![] bcast_S_S800000 (constantI S_ 32 50000#32)))
      (srcV x3))
/-- One normalised aggregation at width 64: the rows of `y` gathered at the sources, scatter-added at the
    destinations into zeros, plus `y` itself, each row scaled by the node's inverse square root degree. -/
def agg64 (x3 : IVec S2x800000 32) (y : FVec F S50000x64 .f32) : FVec F S50000x64 .f32 :=
  mulf (broadcastInDim S50000x64 ![0, 1] bcast_S50000x1_S50000x64_0_1
      (broadcastInDim S50000x1 ![0] bcast_S50000_S50000x1_0 (dinvV (F := F) x3)))
    (addf
      (Host.scatterAdd scatter_S50000x64_S800000x1_S800000x64_1_0_0_1
        (broadcastInDim S50000x64 ![] bcast_S_S50000x64 (constant (F := F) S_ .f32 0x00000000#32))
        (broadcastInDim S800000x1 ![0] bcast_S800000_S800000x1_0 (dstV x3))
        (Host.gather gather_S50000x64_S800000x1_S800000x64_1_0_n_n_0_1_164 y (wrapV x3)))
      y)
/-- The same at width 121. -/
def agg121 (x3 : IVec S2x800000 32) (y : FVec F S50000x121 .f32) : FVec F S50000x121 .f32 :=
  mulf (broadcastInDim S50000x121 ![0, 1] bcast_S50000x1_S50000x121_0_1
      (broadcastInDim S50000x1 ![0] bcast_S50000_S50000x1_0 (dinvV (F := F) x3)))
    (addf
      (Host.scatterAdd scatter_S50000x121_S800000x1_S800000x121_1_0_0_1
        (broadcastInDim S50000x121 ![] bcast_S_S50000x121 (constant (F := F) S_ .f32 0x00000000#32))
        (broadcastInDim S800000x1 ![0] bcast_S800000_S800000x1_0 (dstV x3))
        (Host.gather gather_S50000x121_S800000x1_S800000x121_1_0_n_n_0_1_1121 y (wrapV x3)))
      y)

variable (m : (ℓ : Loc nD τ sig) → Buf (Elt F) ℓ) (ρ : Dev nD → PrngReg)

/-! ## After the first stretch -/

/-- The launch contents of the edge array on core `c`. -/
abbrev edges (c : Dev nD) : IVec S2x800000 32 := m ((c.tc : Thread nD τ).loc main_arg3)

theorem W1_v1 (c : Dev nD) :
    (Gen.W1 m ρ c (Proc.devRef .tc main_v1) : IVec S800000 32) = srcV (edges m c) := by
  show StableHlo.after hostOps0 (Gen.W0 m ρ c) (Proc.devRef .tc main_v1) = _
  after_results
  rfl
theorem W1_v3 (c : Dev nD) :
    (Gen.W1 m ρ c (Proc.devRef .tc main_v3) : IVec S800000 32) = dstV (edges m c) := by
  show StableHlo.after hostOps0 (Gen.W0 m ρ c) (Proc.devRef .tc main_v3) = _
  after_results
  rfl
theorem W1_v10 (c : Dev nD) :
    (Gen.W1 m ρ c (Proc.devRef .tc main_v10) : FVec F S50000 .f32) = dinvV (edges m c) := by
  show StableHlo.after hostOps0 (Gen.W0 m ρ c) (Proc.devRef .tc main_v10) = _
  after_results
  rfl
theorem W1_v11 (c : Dev nD) :
    (Gen.W1 m ρ c (Proc.devRef .tc main_v11) : FVec F S50000x1 .f32) = dinvCol (edges m c) := by
  show StableHlo.after hostOps0 (Gen.W0 m ρ c) (Proc.devRef .tc main_v11) = _
  after_results
  rfl

/-! ## The same buffers at the later boundaries

No later operation writes `main_v1`, `main_v3`, `main_v10` or `main_v11`, and a region leaves an input array as
entered, so each keeps its contents to the end. -/

/-- A buffer that no operation of a host stretch writes has after the stretch what it had before. -/
local macro "unwritten" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem W2_v1 (c : Dev nD) : (Gen.W2 m ρ c (Proc.devRef .tc main_v1) : IVec S800000 32) = srcV (edges m c) :=
  (Gen.W2_of_ne m ρ c main_v1 (by decide)).trans (W1_v1 m ρ c)
theorem W2_v3 (c : Dev nD) : (Gen.W2 m ρ c (Proc.devRef .tc main_v3) : IVec S800000 32) = dstV (edges m c) :=
  (Gen.W2_of_ne m ρ c main_v3 (by decide)).trans (W1_v3 m ρ c)
theorem W2_v10 (c : Dev nD) : (Gen.W2 m ρ c (Proc.devRef .tc main_v10) : FVec F S50000 .f32) = dinvV (edges m c) :=
  (Gen.W2_of_ne m ρ c main_v10 (by decide)).trans (W1_v10 m ρ c)
/-- `main_v11` is region 0's input window 2: the region leaves it as entered. -/
theorem W2_v11 (c : Dev nD) : (Gen.W2 m ρ c (Proc.devRef .tc main_v11) : FVec F S50000x1 .f32) = dinvCol (edges m c) :=
  ((Gen.W2_arr m ρ c 2).trans (((Gen.dat0 (Gen.V1 m ρ) c).arrAt_in 2 rfl _).trans (Gen.A_eq0 (Gen.V1 m ρ) c 2))).trans (W1_v11 m ρ c)

theorem W3_v1 (c : Dev nD) : (Gen.W3 m ρ c (Proc.devRef .tc main_v1) : IVec S800000 32) = srcV (edges m c) :=
  (show StableHlo.after hostOps1 (Gen.W2 m ρ c) (Proc.devRef .tc main_v1) = Gen.W2 m ρ c (Proc.devRef .tc main_v1) by unwritten).trans (W2_v1 m ρ c)
theorem W3_v3 (c : Dev nD) : (Gen.W3 m ρ c (Proc.devRef .tc main_v3) : IVec S800000 32) = dstV (edges m c) :=
  (show StableHlo.after hostOps1 (Gen.W2 m ρ c) (Proc.devRef .tc main_v3) = Gen.W2 m ρ c (Proc.devRef .tc main_v3) by unwritten).trans (W2_v3 m ρ c)
theorem W3_v10 (c : Dev nD) : (Gen.W3 m ρ c (Proc.devRef .tc main_v10) : FVec F S50000 .f32) = dinvV (edges m c) :=
  (show StableHlo.after hostOps1 (Gen.W2 m ρ c) (Proc.devRef .tc main_v10) = Gen.W2 m ρ c (Proc.devRef .tc main_v10) by unwritten).trans (W2_v10 m ρ c)
theorem W3_v11 (c : Dev nD) : (Gen.W3 m ρ c (Proc.devRef .tc main_v11) : FVec F S50000x1 .f32) = dinvCol (edges m c) :=
  (show StableHlo.after hostOps1 (Gen.W2 m ρ c) (Proc.devRef .tc main_v11) = Gen.W2 m ρ c (Proc.devRef .tc main_v11) by unwritten).trans (W2_v11 m ρ c)

theorem W4_v1 (c : Dev nD) : (Gen.W4 m ρ c (Proc.devRef .tc main_v1) : IVec S800000 32) = srcV (edges m c) :=
  (Gen.W4_of_ne m ρ c main_v1 (by decide)).trans (W3_v1 m ρ c)
theorem W4_v3 (c : Dev nD) : (Gen.W4 m ρ c (Proc.devRef .tc main_v3) : IVec S800000 32) = dstV (edges m c) :=
  (Gen.W4_of_ne m ρ c main_v3 (by decide)).trans (W3_v3 m ρ c)
theorem W4_v10 (c : Dev nD) : (Gen.W4 m ρ c (Proc.devRef .tc main_v10) : FVec F S50000 .f32) = dinvV (edges m c) :=
  (Gen.W4_of_ne m ρ c main_v10 (by decide)).trans (W3_v10 m ρ c)

/-! ## What the regions read, and the result -/

/-- Region 0 reads its first two windows' arrays as launched. -/
theorem V1_arg0 (c : Dev nD) : Gen.V1 m ρ c main_arg0 = m ((c.tc : Thread nD τ).loc main_arg0) :=
  show StableHlo.after hostOps0 (Gen.W0 m ρ c) (Proc.devRef .tc main_arg0) = Gen.W0 m ρ c (Proc.devRef .tc main_arg0) by unwritten
theorem V1_arg1 (c : Dev nD) : Gen.V1 m ρ c main_arg1 = m ((c.tc : Thread nD τ).loc main_arg1) :=
  show StableHlo.after hostOps0 (Gen.W0 m ρ c) (Proc.devRef .tc main_arg1) = Gen.W0 m ρ c (Proc.devRef .tc main_arg1) by unwritten
/-- Its third window's array is the inverse square root degrees, as a column. -/
theorem V1_v11 (c : Dev nD) : (Gen.V1 m ρ c main_v11 : FVec F S50000x1 .f32) = dinvCol (edges m c) := W1_v11 m ρ c

/-- Region 1's first window's array: `tanh` of the normalised aggregation of what region 0 leaves in its output. -/
theorem V3_v27 (c : Dev nD) :
    (Gen.V3 m ρ c main_v27 : FVec F S50000x64 .f32)
      = Host.tanh (agg64 (edges m c) ((Gen.dat0 (Gen.V1 m ρ) c).arrAt 3 cfg0.N)) := by
  have e12 : Gen.W2 m ρ c (Proc.devRef .tc main_v12) = (Gen.dat0 (Gen.V1 m ρ) c).arrAt 3 cfg0.N := Gen.W2_arr m ρ c 3
  show StableHlo.after hostOps1 (Gen.W2 m ρ c) (Proc.devRef .tc main_v27) = _
  after_results_simp
  rw [W2_v1, W2_v3, W2_v10, e12]
  rfl
/-- Its second window's array is as launched. -/
theorem V3_arg2 (c : Dev nD) : Gen.V3 m ρ c main_arg2 = m ((c.tc : Thread nD τ).loc main_arg2) :=
  calc Gen.W3 m ρ c (Proc.devRef .tc main_arg2)
    _ = Gen.W2 m ρ c (Proc.devRef .tc main_arg2) := by
      show StableHlo.after hostOps1 (Gen.W2 m ρ c) (Proc.devRef .tc main_arg2) = _
      unwritten
    _ = Gen.W1 m ρ c (Proc.devRef .tc main_arg2) := Gen.W2_of_ne m ρ c main_arg2 (by decide)
    _ = Gen.W0 m ρ c (Proc.devRef .tc main_arg2) := by
      show StableHlo.after hostOps0 (Gen.W0 m ρ c) (Proc.devRef .tc main_arg2) = _
      unwritten
    _ = m ((c.tc : Thread nD τ).loc main_arg2) := rfl
/-- Its third window's array is again the inverse square root degrees, as a column. -/
theorem V3_v11 (c : Dev nD) : (Gen.V3 m ρ c main_v11 : FVec F S50000x1 .f32) = dinvCol (edges m c) := W3_v11 m ρ c

/-- The result: the normalised aggregation, at width 121, of what region 1 leaves in its output. -/
theorem W5_v42 (c : Dev nD) :
    (Gen.W5 m ρ c (Proc.devRef .tc main_v42) : FVec F S50000x121 .f32)
      = agg121 (edges m c) ((Gen.dat1 (Gen.V3 m ρ) c).arrAt 3 cfg1.N) := by
  have e28 : Gen.W4 m ρ c (Proc.devRef .tc main_v28) = (Gen.dat1 (Gen.V3 m ρ) c).arrAt 3 cfg1.N := Gen.W4_arr m ρ c 3
  show StableHlo.after hostOps2 (Gen.W4 m ρ c) (Proc.devRef .tc main_v42) = _
  after_results_simp
  rw [W4_v1, W4_v3, W4_v10, e28]
  rfl

end Cert.KernelIdeal.RunValue

end
-- ==== Proof.Region0Value.lean ====
/-
  The first scaled matrix product, read off the program's schedule.

  The region walks ten row blocks of 5000 rows. At block `t` the body sees rows `5000 t … 5000 t + 4999` of the feature
  array `x` (50 columns), the whole weight array `w` (50 × 64) and the same rows of the scale column `d`, and stores
      o r f = d r · Σ_k x r k · w k f
  for the block's rows: rounding the operands to the shorter float format is the identity on the extended reals, and the
  product accumulates into zero. Every row `r` of the result lies in block `r / 5000` and every block is written back,
  so after the last point the result array holds that function of the three arrays the region found on entry.
-/
import proofs.«132743_j20882130993418_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem zeroOffsets : (![0, 0] : Fin 2 → Nat) = fun _ => 0 := funext fun a => by fin_cases a <;> rfl

/-! ## The body's product, operand by operand -/

theorem prodLeft0_row (i : S5000x64.Idx) (κ : dot_S5000x50_S50x64_S5000x64_1_0_0_1_n_n.contr.Idx) :
    (dot_S5000x50_S50x64_S5000x64_1_0_0_1_n_n.lhsIdx i κ 0).val = (i 0).val := by
  unfold DotDims.lhsIdx
  rw [dif_neg (show ¬(0 : Fin S5000x50.rank) ∈ dot_S5000x50_S50x64_S5000x64_1_0_0_1_n_n.lhsBatch by decide), dif_pos (show (0 : Fin S5000x50.rank) ∈ dot_S5000x50_S50x64_S5000x64_1_0_0_1_n_n.lhsNonContracting by decide)]
  rfl
theorem prodLeft0_col (i : S5000x64.Idx) (κ : dot_S5000x50_S50x64_S5000x64_1_0_0_1_n_n.contr.Idx) :
    (dot_S5000x50_S50x64_S5000x64_1_0_0_1_n_n.lhsIdx i κ 1).val = (κ ⟨0, by decide⟩).val :=
  dot_S5000x50_S50x64_S5000x64_1_0_0_1_n_n.lhsIdx_val_of_single rfl i κ
theorem prodRight0_row (i : S5000x64.Idx) (κ : dot_S5000x50_S50x64_S5000x64_1_0_0_1_n_n.contr.Idx) :
    (dot_S5000x50_S50x64_S5000x64_1_0_0_1_n_n.rhsIdx i κ 0).val = (κ ⟨0, by decide⟩).val :=
  dot_S5000x50_S50x64_S5000x64_1_0_0_1_n_n.rhsIdx_val_of_single rfl i κ
theorem prodRight0_col (i : S5000x64.Idx) (κ : dot_S5000x50_S50x64_S5000x64_1_0_0_1_n_n.contr.Idx) :
    (dot_S5000x50_S50x64_S5000x64_1_0_0_1_n_n.rhsIdx i κ 1).val = (i 1).val := by
  unfold DotDims.rhsIdx
  rw [dif_neg (show ¬(1 : Fin S50x64.rank) ∈ dot_S5000x50_S50x64_S5000x64_1_0_0_1_n_n.rhsBatch by decide), dif_pos (show (1 : Fin S50x64.rank) ∈ dot_S5000x50_S50x64_S5000x64_1_0_0_1_n_n.rhsNonContracting by decide)]
  rfl

/-- The product into a zero accumulator, at an index: the row of the left operand against the column of the right. -/
theorem prod0_apply (l : FVec Ideal S5000x50 .bf16) (r : FVec Ideal S50x64 .bf16) (p : Fin 5000) (q : Fin 64) :
    FloatOps.matmul dot_S5000x50_S50x64_S5000x64_1_0_0_1_n_n none l r (constant (F := Ideal) S5000x64 .f32 0x00000000#32) (ix2 p q)
      = ∑ k : Fin 50, l (ix2 p k) * r (ix2 k q) := by
  rw [Ideal.matmul_constant_zero_apply, ← Equiv.sum_comp (contrEquiv1 dot_S5000x50_S50x64_S5000x64_1_0_0_1_n_n 50 rfl rfl).symm]
  refine Finset.sum_congr rfl fun k _ => ?_
  have hk := contrEquiv1_symm_val dot_S5000x50_S50x64_S5000x64_1_0_0_1_n_n 50 rfl rfl k
  have el : dot_S5000x50_S50x64_S5000x64_1_0_0_1_n_n.lhsIdx (ix2 p q) ((contrEquiv1 dot_S5000x50_S50x64_S5000x64_1_0_0_1_n_n 50 rfl rfl).symm k) = ix2 p k := funext fun a => Fin.ext (by
    match a with
    | ⟨0, _⟩ => exact prodLeft0_row _ _
    | ⟨1, _⟩ => exact (prodLeft0_col _ _).trans hk)
  have er : dot_S5000x50_S50x64_S5000x64_1_0_0_1_n_n.rhsIdx (ix2 p q) ((contrEquiv1 dot_S5000x50_S50x64_S5000x64_1_0_0_1_n_n 50 rfl rfl).symm k) = ix2 k q := funext fun a => Fin.ext (by
    match a with
    | ⟨0, _⟩ => exact (prodRight0_row _ _).trans hk
    | ⟨1, _⟩ => exact prodRight0_col _ _)
  rw [el, er]

/-- The column of scale factors spread along the rows, at an index. -/
theorem spread0_apply (x2 : Vec Ideal S5000x1 .f32) (p : Fin 5000) (q : Fin 64) :
    broadcastTo S5000x64 (shapeCast S5000x1 x2 shapeCasts_S5000x1_S5000x1) broadcasts_S5000x1_S5000x64 (ix2 p q) = x2 (ix2 p (0 : Fin 1)) := by
  rw [shapeCast_self]
  refine broadcastTo_apply x2 broadcasts_S5000x1_S5000x64 (ix2 p q) (ix2 p (0 : Fin 1)) fun a => ?_
  match a with
  | ⟨0, _⟩ => rfl
  | ⟨1, _⟩ => rfl

/-- The body's stored value at an index: the row's scale factor times the row of the features against the column of the
    weights. -/
theorem pay0_apply (x0 : Vec Ideal S5000x50 .f32) (x1 : Vec Ideal S50x64 .f32) (x2 : Vec Ideal S5000x1 .f32) (p : Fin 5000) (q : Fin 64) :
    k0_pay1 (F := Ideal) x0 x1 x2 (ix2 p q) = x2 (ix2 p (0 : Fin 1)) * ∑ k : Fin 50, x0 (ix2 p k) * x1 (ix2 k q) := by
  unfold k0_pay1
  show (broadcastTo S5000x64 (shapeCast S5000x1 x2 shapeCasts_S5000x1_S5000x1) broadcasts_S5000x1_S5000x64 (ix2 p q) : EReal)
      * FloatOps.matmul (F := Ideal) dot_S5000x50_S50x64_S5000x64_1_0_0_1_n_n none (truncf (F := Ideal) .bf16 x0 bitsLt_bf16_f32) (truncf (F := Ideal) .bf16 x1 bitsLt_bf16_f32) (constant (F := Ideal) S5000x64 .f32 0x00000000#32) (ix2 p q) = _
  rw [spread0_apply, prod0_apply]
  rfl

/-! ## From the blocks to the array -/

/-- The scaled product of the whole arrays, index by index: row `i 0`'s scale factor times row `i 0` of the features
    against column `i 1` of the weights. -/
def scaledProduct0 (a0 : S50000x50.Idx → EReal) (a1 : S50x64.Idx → EReal) (a2 : S50000x1.Idx → EReal) : S50000x64.Idx → EReal :=
  fun i => a2 (ix2 (i 0) (0 : Fin 1)) * ∑ k : Fin 50, a0 (ix2 (i 0) k) * a1 (ix2 k (i 1))

/-- The block indices at point `t`: the three row-blocked windows sit at row block `t`, the weights at their one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- The feature block at point `t` is rows `5000 t … 5000 t + 4999` of the feature array. -/
theorem featureBlock0 (t : Fin cfg0.N) (p : Fin 5000) (k : Fin 50) (r : Fin 50000) (hr : r.val = t.val * 5000 + p.val) :
    (iblk0 (F := Ideal) V c 0 t : Vec Ideal S5000x50 .f32) (ix2 p k) = (V c main_arg0 : S50000x50.Idx → EReal) (ix2 r k) := by
  obtain ⟨e0, e1, -⟩ := blockIndex0 t
  show (V c main_arg0 : S50000x50.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 50 + 1 * k.val = k.val; omega

/-- The weight block at every point is the whole weight array. -/
theorem weightBlock0 (t : Fin cfg0.N) (k : Fin 50) (q : Fin 64) :
    (iblk0 (F := Ideal) V c 1 t : Vec Ideal S50x64 .f32) (ix2 k q) = (V c main_arg1 : S50x64.Idx → EReal) (ix2 k q) := by
  obtain ⟨-, -, e0, e1, -⟩ := blockIndex0 t
  show (V c main_arg1 : S50x64.Idx → EReal) (((cfg0.win 1).blk t).view.emb (ix2 k q)) = _
  refine congrArg _ (funext fun a => Fin.ext ?_)
  match a with
  | ⟨0, _⟩ => show win0_1.index t (0 : Fin 2) * 50 + 1 * k.val = k.val; omega
  | ⟨1, _⟩ => show win0_1.index t (1 : Fin 2) * 64 + 1 * q.val = q.val; omega

/-- The scale block at point `t` is rows `5000 t … 5000 t + 4999` of the scale column. -/
theorem scaleBlock0 (t : Fin cfg0.N) (p : Fin 5000) (r : Fin 50000) (hr : r.val = t.val * 5000 + p.val) :
    (iblk0 (F := Ideal) V c 2 t : Vec Ideal S5000x1 .f32) (ix2 p (0 : Fin 1)) = (V c main_v11 : S50000x1.Idx → EReal) (ix2 r (0 : Fin 1)) := by
  obtain ⟨-, -, -, -, e0, e1, -⟩ := blockIndex0 t
  show (V c main_v11 : S50000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What the body computes from the blocks at point `t` is block `t` of the scaled product of the arrays. -/
theorem blockValue0 (t : Fin cfg0.N) (j : S5000x64.Idx) :
    k0_pay1 (F := Ideal) (iblk0 V c 0 t) (iblk0 V c 1 t) (iblk0 V c 2 t) j
      = scaledProduct0 (V c main_arg0) (V c main_arg1) (V c main_v11) (((cfg0.win 3).blk t).view.emb j) := by
  obtain ⟨p, q, rfl⟩ : ∃ (p : Fin 5000) (q : Fin 64), j = ix2 p q := ⟨j 0, j 1, eq_ix2 j⟩
  have hN : cfg0.N = 10 := N_0
  have ht : t.val < 10 := by have h := t.isLt; omega
  obtain ⟨-, -, -, -, -, -, e0, e1⟩ := blockIndex0 t
  have hemb : (((cfg0.win 3).blk t).view.emb (ix2 p q) : S50000x64.Idx) = ix2 (⟨t.val * 5000 + p.val, by omega⟩ : Fin 50000) q :=
    funext fun a => Fin.ext (by
      match a with
      | ⟨0, _⟩ => show win0_3.index t (0 : Fin 2) * 5000 + 1 * p.val = t.val * 5000 + p.val; omega
      | ⟨1, _⟩ => show win0_3.index t (1 : Fin 2) * 64 + 1 * q.val = q.val; omega)
  refine (pay0_apply _ _ _ p q).trans ?_
  refine Eq.trans ?_ (congrArg (scaledProduct0 (V c main_arg0) (V c main_arg1) (V c main_v11)) hemb.symm)
  exact congrArg₂ (· * ·) (scaleBlock0 V c t p _ rfl)
    (Finset.sum_congr rfl fun k _ => congrArg₂ (· * ·) (featureBlock0 V c t p k _ rfl) (weightBlock0 V c t k q))

/-- What point `t` writes back is block `t` of the scaled product. -/
theorem written0 (t : Fin cfg0.N) :
    (dat0 (F := Ideal) V c).flushed 3 t
      = ((cfg0.win 3).blk t).view.read (Elt Ideal) (scaledProduct0 (V c main_arg0) (V c main_arg1) (V c main_v11)) := by
  show (cfg0.win 3).cut (grid0.coords t) ((dat0 V c).after 3 t) = _
  rw [after0_3]
  unfold out0_3
  rw [View.canon_unit_zero zeroOffsets]
  simp only [View.ld_unit_zero (S := S5000x50) zeroOffsets, View.ld_unit_zero (S := S50x64) zeroOffsets, View.ld_unit_zero (S := S5000x1) zeroOffsets]
  funext j
  exact blockValue0 V c t j

/-- An index of the result array is in point `t`'s block iff each coordinate is in the block's range on its axis. -/
theorem mem_block0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Row `r` of the result lies in the block of point `r / 5000`, which writes back. -/
theorem covered0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, e0, e1⟩ := blockIndex0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The first region's result array after its last point: the scaled product of the arrays the region found. -/
theorem region0_out : (dat0 (F := Ideal) V c).arrAt 3 cfg0.N = scaledProduct0 (V c main_arg0) (V c main_arg1) (V c main_v11) :=
  (dat0 (F := Ideal) V c).arrAt_eq_of_cover 3 (scaledProduct0 (V c main_arg0) (V c main_arg1) (V c main_v11))
    (fun t _ => written0 V c t) covered0

/-- The same with the three arrays the region found named: row `i 0`'s scale factor times the sum over `k` of the
    features at `(i 0, k)` times the weights at `(k, i 1)`. -/
theorem region0_out_of (a0 : S50000x50.Idx → EReal) (a1 : S50x64.Idx → EReal) (a2 : S50000x1.Idx → EReal)
    (h0 : V c main_arg0 = a0) (h1 : V c main_arg1 = a1) (h2 : V c main_v11 = a2) :
    (dat0 (F := Ideal) V c).arrAt 3 cfg0.N
      = fun i : S50000x64.Idx => a2 (ix2 (i 0) (0 : Fin 1)) * ∑ k : Fin 50, a0 (ix2 (i 0) k) * a1 (ix2 k (i 1)) := by
  subst h0 h1 h2
  exact region0_out V c

/-- The windows' arrays by name. -/
theorem window0_0 : Pipeline.arrRef spec0 0 = main_arg0 := rfl
theorem window0_1 : Pipeline.arrRef spec0 1 = main_arg1 := rfl
theorem window0_2 : Pipeline.arrRef spec0 2 = main_v11 := rfl
theorem window0_3 : Pipeline.arrRef spec0 3 = main_v12 := rfl

end

end Cert.KernelIdeal.RegionValue

end
-- ==== Proof.Region1Value.lean ====
/-
  The second scaled matrix product, read off the program's schedule.

  The region walks ten row blocks of 5000 rows. At block `t` the body sees rows `5000 t … 5000 t + 4999` of the hidden
  features `h` (64 columns), the whole weight array `w` (64 × 121) and the same rows of the scale column `d`, and stores
      o r f = d r · Σ_k h r k · w k f
  for the block's rows: rounding the operands to the shorter float format is the identity on the extended reals, and the
  product accumulates into zero. Every row `r` of the result lies in block `r / 5000` and every block is written back,
  so after the last point the result array holds that function of the three arrays the region found on entry.
-/
import proofs.«132743_j20882130993418_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem zeroOffsets1 : (![0, 0] : Fin 2 → Nat) = fun _ => 0 := funext fun a => by fin_cases a <;> rfl

/-! ## The body's product, operand by operand -/

theorem prodLeft1_row (i : S5000x121.Idx) (κ : dot_S5000x64_S64x121_S5000x121_1_0_0_1_n_n.contr.Idx) :
    (dot_S5000x64_S64x121_S5000x121_1_0_0_1_n_n.lhsIdx i κ 0).val = (i 0).val := by
  unfold DotDims.lhsIdx
  rw [dif_neg (show ¬(0 : Fin S5000x64.rank) ∈ dot_S5000x64_S64x121_S5000x121_1_0_0_1_n_n.lhsBatch by decide), dif_pos (show (0 : Fin S5000x64.rank) ∈ dot_S5000x64_S64x121_S5000x121_1_0_0_1_n_n.lhsNonContracting by decide)]
  rfl
theorem prodLeft1_col (i : S5000x121.Idx) (κ : dot_S5000x64_S64x121_S5000x121_1_0_0_1_n_n.contr.Idx) :
    (dot_S5000x64_S64x121_S5000x121_1_0_0_1_n_n.lhsIdx i κ 1).val = (κ ⟨0, by decide⟩).val :=
  dot_S5000x64_S64x121_S5000x121_1_0_0_1_n_n.lhsIdx_val_of_single rfl i κ
theorem prodRight1_row (i : S5000x121.Idx) (κ : dot_S5000x64_S64x121_S5000x121_1_0_0_1_n_n.contr.Idx) :
    (dot_S5000x64_S64x121_S5000x121_1_0_0_1_n_n.rhsIdx i κ 0).val = (κ ⟨0, by decide⟩).val :=
  dot_S5000x64_S64x121_S5000x121_1_0_0_1_n_n.rhsIdx_val_of_single rfl i κ
theorem prodRight1_col (i : S5000x121.Idx) (κ : dot_S5000x64_S64x121_S5000x121_1_0_0_1_n_n.contr.Idx) :
    (dot_S5000x64_S64x121_S5000x121_1_0_0_1_n_n.rhsIdx i κ 1).val = (i 1).val := by
  unfold DotDims.rhsIdx
  rw [dif_neg (show ¬(1 : Fin S64x121.rank) ∈ dot_S5000x64_S64x121_S5000x121_1_0_0_1_n_n.rhsBatch by decide), dif_pos (show (1 : Fin S64x121.rank) ∈ dot_S5000x64_S64x121_S5000x121_1_0_0_1_n_n.rhsNonContracting by decide)]
  rfl

/-- The product into a zero accumulator, at an index: the row of the left operand against the column of the right. -/
theorem prod1_apply (l : FVec Ideal S5000x64 .bf16) (r : FVec Ideal S64x121 .bf16) (p : Fin 5000) (q : Fin 121) :
    FloatOps.matmul dot_S5000x64_S64x121_S5000x121_1_0_0_1_n_n none l r (constant (F := Ideal) S5000x121 .f32 0x00000000#32) (ix2 p q)
      = ∑ k : Fin 64, l (ix2 p k) * r (ix2 k q) := by
  rw [Ideal.matmul_constant_zero_apply, ← Equiv.sum_comp (contrEquiv1 dot_S5000x64_S64x121_S5000x121_1_0_0_1_n_n 64 rfl rfl).symm]
  refine Finset.sum_congr rfl fun k _ => ?_
  have hk := contrEquiv1_symm_val dot_S5000x64_S64x121_S5000x121_1_0_0_1_n_n 64 rfl rfl k
  have el : dot_S5000x64_S64x121_S5000x121_1_0_0_1_n_n.lhsIdx (ix2 p q) ((contrEquiv1 dot_S5000x64_S64x121_S5000x121_1_0_0_1_n_n 64 rfl rfl).symm k) = ix2 p k := funext fun a => Fin.ext (by
    match a with
    | ⟨0, _⟩ => exact prodLeft1_row _ _
    | ⟨1, _⟩ => exact (prodLeft1_col _ _).trans hk)
  have er : dot_S5000x64_S64x121_S5000x121_1_0_0_1_n_n.rhsIdx (ix2 p q) ((contrEquiv1 dot_S5000x64_S64x121_S5000x121_1_0_0_1_n_n 64 rfl rfl).symm k) = ix2 k q := funext fun a => Fin.ext (by
    match a with
    | ⟨0, _⟩ => exact (prodRight1_row _ _).trans hk
    | ⟨1, _⟩ => exact prodRight1_col _ _)
  rw [el, er]

/-- The column of scale factors spread along the rows, at an index. -/
theorem spread1_apply (x2 : Vec Ideal S5000x1 .f32) (p : Fin 5000) (q : Fin 121) :
    broadcastTo S5000x121 (shapeCast S5000x1 x2 shapeCasts_S5000x1_S5000x1) broadcasts_S5000x1_S5000x121 (ix2 p q) = x2 (ix2 p (0 : Fin 1)) := by
  rw [shapeCast_self]
  refine broadcastTo_apply x2 broadcasts_S5000x1_S5000x121 (ix2 p q) (ix2 p (0 : Fin 1)) fun a => ?_
  match a with
  | ⟨0, _⟩ => rfl
  | ⟨1, _⟩ => rfl

/-- The body's stored value at an index: the row's scale factor times the row of the features against the column of the
    weights. -/
theorem pay1_apply (x0 : Vec Ideal S5000x64 .f32) (x1 : Vec Ideal S64x121 .f32) (x2 : Vec Ideal S5000x1 .f32) (p : Fin 5000) (q : Fin 121) :
    k1_pay1 (F := Ideal) x0 x1 x2 (ix2 p q) = x2 (ix2 p (0 : Fin 1)) * ∑ k : Fin 64, x0 (ix2 p k) * x1 (ix2 k q) := by
  unfold k1_pay1
  show (broadcastTo S5000x121 (shapeCast S5000x1 x2 shapeCasts_S5000x1_S5000x1) broadcasts_S5000x1_S5000x121 (ix2 p q) : EReal)
      * FloatOps.matmul (F := Ideal) dot_S5000x64_S64x121_S5000x121_1_0_0_1_n_n none (truncf (F := Ideal) .bf16 (shapeCast S5000x64 x0 shapeCasts_S5000x64_S5000x64) bitsLt_bf16_f32) (truncf (F := Ideal) .bf16 x1 bitsLt_bf16_f32) (constant (F := Ideal) S5000x121 .f32 0x00000000#32) (ix2 p q) = _
  rw [spread1_apply, prod1_apply, shapeCast_self]
  rfl

/-! ## From the blocks to the array -/

/-- The scaled product of the whole arrays, index by index: row `i 0`'s scale factor times row `i 0` of the features
    against column `i 1` of the weights. -/
def scaledProduct1 (a0 : S50000x64.Idx → EReal) (a1 : S64x121.Idx → EReal) (a2 : S50000x1.Idx → EReal) : S50000x121.Idx → EReal :=
  fun i => a2 (ix2 (i 0) (0 : Fin 1)) * ∑ k : Fin 64, a0 (ix2 (i 0) k) * a1 (ix2 k (i 1))

/-- The block indices at point `t`: the three row-blocked windows sit at row block `t`, the weights at their one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- The feature block at point `t` is rows `5000 t … 5000 t + 4999` of the feature array. -/
theorem featureBlock1 (t : Fin cfg1.N) (p : Fin 5000) (k : Fin 64) (r : Fin 50000) (hr : r.val = t.val * 5000 + p.val) :
    (iblk1 (F := Ideal) V c 0 t : Vec Ideal S5000x64 .f32) (ix2 p k) = (V c main_v27 : S50000x64.Idx → EReal) (ix2 r k) := by
  obtain ⟨e0, e1, -⟩ := blockIndex1 t
  show (V c main_v27 : S50000x64.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The weight block at every point is the whole weight array. -/
theorem weightBlock1 (t : Fin cfg1.N) (k : Fin 64) (q : Fin 121) :
    (iblk1 (F := Ideal) V c 1 t : Vec Ideal S64x121 .f32) (ix2 k q) = (V c main_arg2 : S64x121.Idx → EReal) (ix2 k q) := by
  obtain ⟨-, -, e0, e1, -⟩ := blockIndex1 t
  show (V c main_arg2 : S64x121.Idx → EReal) (((cfg1.win 1).blk t).view.emb (ix2 k q)) = _
  refine congrArg _ (funext fun a => Fin.ext ?_)
  match a with
  | ⟨0, _⟩ => show win1_1.index t (0 : Fin 2) * 64 + 1 * k.val = k.val; omega
  | ⟨1, _⟩ => show win1_1.index t (1 : Fin 2) * 121 + 1 * q.val = q.val; omega

/-- The scale block at point `t` is rows `5000 t … 5000 t + 4999` of the scale column. -/
theorem scaleBlock1 (t : Fin cfg1.N) (p : Fin 5000) (r : Fin 50000) (hr : r.val = t.val * 5000 + p.val) :
    (iblk1 (F := Ideal) V c 2 t : Vec Ideal S5000x1 .f32) (ix2 p (0 : Fin 1)) = (V c main_v11 : S50000x1.Idx → EReal) (ix2 r (0 : Fin 1)) := by
  obtain ⟨-, -, -, -, e0, e1, -⟩ := blockIndex1 t
  show (V c main_v11 : S50000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- What the body computes from the blocks at point `t` is block `t` of the scaled product of the arrays. -/
theorem blockValue1 (t : Fin cfg1.N) (j : S5000x121.Idx) :
    k1_pay1 (F := Ideal) (iblk1 V c 0 t) (iblk1 V c 1 t) (iblk1 V c 2 t) j
      = scaledProduct1 (V c main_v27) (V c main_arg2) (V c main_v11) (((cfg1.win 3).blk t).view.emb j) := by
  obtain ⟨p, q, rfl⟩ : ∃ (p : Fin 5000) (q : Fin 121), j = ix2 p q := ⟨j 0, j 1, eq_ix2 j⟩
  have hN : cfg1.N = 10 := N_1
  have ht : t.val < 10 := by have h := t.isLt; omega
  obtain ⟨-, -, -, -, -, -, e0, e1⟩ := blockIndex1 t
  have hemb : (((cfg1.win 3).blk t).view.emb (ix2 p q) : S50000x121.Idx) = ix2 (⟨t.val * 5000 + p.val, by omega⟩ : Fin 50000) q :=
    funext fun a => Fin.ext (by
      match a with
      | ⟨0, _⟩ => show win1_3.index t (0 : Fin 2) * 5000 + 1 * p.val = t.val * 5000 + p.val; omega
      | ⟨1, _⟩ => show win1_3.index t (1 : Fin 2) * 121 + 1 * q.val = q.val; omega)
  refine (pay1_apply _ _ _ p q).trans ?_
  refine Eq.trans ?_ (congrArg (scaledProduct1 (V c main_v27) (V c main_arg2) (V c main_v11)) hemb.symm)
  exact congrArg₂ (· * ·) (scaleBlock1 V c t p _ rfl)
    (Finset.sum_congr rfl fun k _ => congrArg₂ (· * ·) (featureBlock1 V c t p k _ rfl) (weightBlock1 V c t k q))

/-- What point `t` writes back is block `t` of the scaled product. -/
theorem written1 (t : Fin cfg1.N) :
    (dat1 (F := Ideal) V c).flushed 3 t
      = ((cfg1.win 3).blk t).view.read (Elt Ideal) (scaledProduct1 (V c main_v27) (V c main_arg2) (V c main_v11)) := by
  show (cfg1.win 3).cut (grid1.coords t) ((dat1 V c).after 3 t) = _
  rw [after1_3]
  unfold out1_3
  rw [View.canon_unit_zero zeroOffsets1]
  simp only [View.ld_unit_zero (S := S5000x64) zeroOffsets1, View.ld_unit_zero (S := S64x121) zeroOffsets1, View.ld_unit_zero (S := S5000x1) zeroOffsets1]
  funext j
  exact blockValue1 V c t j

/-- An index of the result array is in point `t`'s block iff each coordinate is in the block's range on its axis. -/
theorem mem_block1 (t : Fin cfg1.N) (i : S50000x121.Idx) :
    i ∈ ((cfg1.win 3).blk t).view.set ↔ ∀ a : Fin 2, win1_3.index t a * S5000x121.size a ≤ (i a).val ∧ (i a).val < win1_3.index t a * S5000x121.size a + S5000x121.size a := by
  show i ∈ ((View.whole main_v28).slice (win1_3.rect t)).set ↔ _
  rw [View.set_slice_whole, Rect.mem_set_unit]
  exact Iff.rfl

/-- Row `r` of the result lies in the block of point `r / 5000`, which writes back. -/
theorem covered1 (i : S50000x121.Idx) : ∃ t : Fin cfg1.N, (cfg1.win 3).flush t = true ∧ i ∈ ((cfg1.win 3).blk t).view.set := by
  have hi0 : (i 0).val < 50000 := (i 0).isLt
  have hi1 : (i 1).val < 121 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, e0, e1⟩ := blockIndex1 t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 121 ≤ (i 1).val ∧ (i 1).val < win1_3.index t (1 : Fin 2) * 121 + 121; omega

/-- The second region's result array after its last point: the scaled product of the arrays the region found. -/
theorem region1_out : (dat1 (F := Ideal) V c).arrAt 3 cfg1.N = scaledProduct1 (V c main_v27) (V c main_arg2) (V c main_v11) :=
  (dat1 (F := Ideal) V c).arrAt_eq_of_cover 3 (scaledProduct1 (V c main_v27) (V c main_arg2) (V c main_v11))
    (fun t _ => written1 V c t) covered1

/-- The same with the three arrays the region found named: row `i 0`'s scale factor times the sum over `k` of the
    features at `(i 0, k)` times the weights at `(k, i 1)`. -/
theorem region1_out_of (a0 : S50000x64.Idx → EReal) (a1 : S64x121.Idx → EReal) (a2 : S50000x1.Idx → EReal)
    (h0 : V c main_v27 = a0) (h1 : V c main_arg2 = a1) (h2 : V c main_v11 = a2) :
    (dat1 (F := Ideal) V c).arrAt 3 cfg1.N
      = fun i : S50000x121.Idx => a2 (ix2 (i 0) (0 : Fin 1)) * ∑ k : Fin 64, a0 (ix2 (i 0) k) * a1 (ix2 k (i 1)) := by
  subst h0 h1 h2
  exact region1_out V c

/-- The windows' arrays by name. -/
theorem window1_0 : Pipeline.arrRef spec1 0 = main_v27 := rfl
theorem window1_1 : Pipeline.arrRef spec1 1 = main_arg2 := rfl
theorem window1_2 : Pipeline.arrRef spec1 2 = main_v11 := rfl
theorem window1_3 : Pipeline.arrRef spec1 3 = main_v28 := rfl

end

end Cert.KernelIdeal.RegionValue

end
-- ==== Proof.KernelIndex.lean ====
/-
  The kernel program's host terms read at one index, at the extended reals, against the specification.

  Between its two pipelined regions the kernel program computes, on the host, from the edge array: the edges' source and
  destination words (rows 0 and 1 of the array, as vectors); the normalisation `1 / √(deg v)` (ones added at the
  destinations into zeros count the edges into each node; plus one; inverse square root), as a vector and as a column;
  the gather indices (a negative source word shifted up by the node count); and, at widths 64 and 121, the aggregation
  (rows gathered at the sources, added at the destinations into zeros, plus the array itself, each row scaled by the
  node's normalisation).

  Each is read here at one index and is the specification's term there: `srcWord`, `dstWord`, `wrapWord`, `dinv`,
  `layer`. The layout operations are followed coordinate by coordinate; the scatter-add at a node is the sum over the
  edges whose destination word, read signed, is that node, which is the specification's set `hits`; the gather at an
  edge reads the row `rowOf` names.
-/
import proofs.«132743_j20882130993418_2_alg».proof.Proof.KernelFold
import proofs.«132743_j20882130993418_2_alg».proof.Proof.Spec
import proofs.«132743_j20882130993418_2_alg».proof.Proof.LibScatterGather
import proofs.«132743_j20882130993418_2_alg».proof.Proof.GatherRows
import Idealize.ShloMosaic.Lib.Pipeline.Value
import Idealize.ShloMosaic.Lib.ValueIdx

set_option maxRecDepth 16384

noncomputable section

open scoped BigOperators

namespace Cert.KernelIdeal.IndexValue

open Idealize.ShloMosaic Idealize.ShloMosaic.ValueIdx
open Cert.KernelIdeal Cert.KernelIdeal.Gen Cert.KernelIdeal.RunValue
open Cert.Lib.ScatterGather

/-- The sources vector at `e` is edge `e`'s source word. -/
theorem srcV_at (x3 : IVec S2x800000 32) (e : Fin 800000) : srcV x3 (ix1 e) = Cert.Gcn.srcWord x3 e := by
  unfold srcV
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![0, 0] x3 slices_S2x800000_S1x800000_0_0 (ix2 (0 : Fin 1) e) (ix2 (0 : Fin 2) e)
    (fun a => match a with
      | ⟨0, _⟩ => by show 0 = 0 + 0; omega
      | ⟨1, _⟩ => by show e.val = 0 + e.val; omega)

/-- The destinations vector at `e` is edge `e`'s destination word. -/
theorem dstV_at (x3 : IVec S2x800000 32) (e : Fin 800000) : dstV x3 (ix1 e) = Cert.Gcn.dstWord x3 e := by
  unfold dstV
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![1, 0] x3 slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

/-- A vector over the edges spread into a column reads, at row `e`, the vector at `e`. -/
theorem col_at {α : Type} (y : S800000.Idx → α) (e : Fin 800000) :
    broadcastInDim S800000x1 ![0] bcast_S800000_S800000x1_0 y (ix2 e (0 : Fin 1)) = y (ix1 e) :=
  broadcastInDim_apply _ bcast_S800000_S800000x1_0 y (ix2 e (0 : Fin 1)) (ix1 e) (fun a => match a with
    | ⟨0, _⟩ => by show e.val = if (800000 : Nat) = 1 then 0 else e.val; rw [if_neg (by decide)])

/-- The gather indices at row `e`: edge `e`'s source word, a negative one shifted up by the node count. -/
theorem wrapV_at (x3 : IVec S2x800000 32) (e : Fin 800000) :
    wrapV x3 (ix2 e (0 : Fin 1)) = Cert.Gcn.wrapWord (Cert.Gcn.srcWord x3 e) := by
  unfold wrapV
  rw [col_at]
  show Scalar.select (IntOp.cmpi .slt (srcV x3 (ix1 e)) 0#32) (IntOp.addi (srcV x3 (ix1 e)) 50000#32) (srcV x3 (ix1 e)) = _
  rw [srcV_at]
  rfl

/-- The edges whose destination word, read signed off the destinations column, is `v` are the edges into `v`. -/
theorem hits_eq (x3 : IVec S2x800000 32) (v : Fin 50000) :
    Finset.univ.filter (fun e : Fin 800000 =>
      ((broadcastInDim S800000x1 ![0] bcast_S800000_S800000x1_0 (dstV x3)) (ix2 e (0 : Fin 1))).toInt = (v.val : ℤ))
      = Cert.Gcn.hits x3 v := by
  unfold Cert.Gcn.hits
  refine Finset.filter_congr fun e _ => ?_
  rw [col_at, dstV_at]

/-- The host's inverse square root read at an index. -/
theorem rsqrt_at {s : Shape} {φ : FTy} (x : FVec Ideal s φ) (i : s.Idx) : Host.rsqrt x i = Ideal.rsqrt (x i) := rfl

/-- A scalar constant spread over a shape reads, everywhere, the extended real its word encodes. -/
theorem splat_at {t : Shape} (dims : Fin S_.rank → Fin t.rank) (h : S_.BroadcastsInDim t dims) (b : BitVec 32) (i : t.Idx) :
    broadcastInDim t dims h (constant (F := Ideal) S_ .f32 b) i = Ideal.ofBits .f32 b := rfl

/-- The normalisation vector at `v`: ones added at the destinations into zeros count the edges into `v`; plus one;
    inverse square root. -/
theorem dinvV_at (x3 : IVec S2x800000 32) (v : Fin 50000) : dinvV (F := Ideal) x3 (ix1 v) = Cert.Gcn.dinv x3 v := by
  unfold dinvV
  rw [rsqrt_at, addf_apply]
  rw [show scatter_S50000_S800000x1_S800000_n_0_0_1 = flatScatterDims 50000 800000 _ from rfl]
  rw [scatterAdd_flat_apply, hits_eq]
  simp only [splat_at]
  unfold Cert.Gcn.dinv Cert.Gcn.deg Cert.Gcn.zero Cert.Gcn.one
  rfl

/-- The normalisation column at row `v`. -/
theorem dinvCol_at (x3 : IVec S2x800000 32) (v : Fin 50000) :
    dinvCol (F := Ideal) x3 (ix2 v (0 : Fin 1)) = Cert.Gcn.dinv x3 v := by
  unfold dinvCol
  refine (shapeCast_apply _ shapeCasts_S50000_S50000x1 (ix2 v (0 : Fin 1)) (ix1 v)
    (by rewrite [Shape.rowMajor_val_two, Shape.rowMajor_val_one]; show v.val = v.val * 1 + 0; omega)).trans ?_
  exact dinvV_at x3 v

/-- A vector over the nodes spread over the rows of a `[50000, 64]` array reads, at `(v, f)`, the vector at `v`. -/
theorem rowScale64_at {α : Type} (d : S50000.Idx → α) (v : Fin 50000) (f : Fin 64) :
    broadcastInDim S50000x64 ![0, 1] bcast_S50000x1_S50000x64_0_1
      (broadcastInDim S50000x1 ![0] bcast_S50000_S50000x1_0 d) (ix2 v f) = d (ix1 v) := by
  refine (broadcastInDim_apply _ bcast_S50000x1_S50000x64_0_1 _ (ix2 v f) (ix2 v (0 : Fin 1)) (fun a => match a with
      | ⟨0, _⟩ => by show v.val = if (50000 : Nat) = 1 then 0 else v.val; rw [if_neg (by decide)]
      | ⟨1, _⟩ => by show 0 = if (1 : Nat) = 1 then 0 else f.val; rw [if_pos rfl])).trans ?_
  exact broadcastInDim_apply _ bcast_S50000_S50000x1_0 d (ix2 v (0 : Fin 1)) (ix1 v) (fun a => match a with
      | ⟨0, _⟩ => by show v.val = if (50000 : Nat) = 1 then 0 else v.val; rw [if_neg (by decide)])

/-- The message of edge `e` at width 64: the row of `y` its source word names, shifted and clamped. -/
theorem msg64_at (x3 : IVec S2x800000 32) (y : FVec Ideal S50000x64 .f32) (e : Fin 800000) (f : Fin 64) :
    Host.gather gather_S50000x64_S800000x1_S800000x64_1_0_n_n_0_1_164 y (wrapV x3) (ix2 e f)
      = y (ix2 (Cert.Gcn.rowOf (Cert.Gcn.srcWord x3 e)) f) := by
  rw [show gather_S50000x64_S800000x1_S800000x64_1_0_n_n_0_1_164 = rowGatherDims 50000 800000 64 _ from rfl]
  exact Cert.Gcn.gather_rows_row _ y (wrapV x3) e f (Cert.Gcn.srcWord x3 e) (wrapV_at x3 e)

/-- The aggregation at width 64 read at `(v, f)`: the specification's layer with the normalisation `dinv`. -/
theorem agg64_at (x3 : IVec S2x800000 32) (y : FVec Ideal S50000x64 .f32) (v : Fin 50000) (f : Fin 64) :
    agg64 (F := Ideal) x3 y (ix2 v f) = Cert.Gcn.layer x3 (Cert.Gcn.dinv x3) (fun u g => y (ix2 u g)) v f := by
  unfold agg64
  rw [mulf_apply, addf_apply, rowScale64_at, dinvV_at]
  rw [show scatter_S50000x64_S800000x1_S800000x64_1_0_0_1 = rowScatterDims 50000 800000 64 _ from rfl]
  rw [scatterAdd_rows_apply, hits_eq, splat_at]
  simp only [msg64_at]
  unfold Cert.Gcn.layer Cert.Gcn.zero
  rfl

/-- A vector over the nodes spread over the rows of a `[50000, 121]` array reads, at `(v, f)`, the vector at `v`. -/
theorem rowScale121_at {α : Type} (d : S50000.Idx → α) (v : Fin 50000) (f : Fin 121) :
    broadcastInDim S50000x121 ![0, 1] bcast_S50000x1_S50000x121_0_1
      (broadcastInDim S50000x1 ![0] bcast_S50000_S50000x1_0 d) (ix2 v f) = d (ix1 v) := by
  refine (broadcastInDim_apply _ bcast_S50000x1_S50000x121_0_1 _ (ix2 v f) (ix2 v (0 : Fin 1)) (fun a => match a with
      | ⟨0, _⟩ => by show v.val = if (50000 : Nat) = 1 then 0 else v.val; rw [if_neg (by decide)]
      | ⟨1, _⟩ => by show 0 = if (1 : Nat) = 1 then 0 else f.val; rw [if_pos rfl])).trans ?_
  exact broadcastInDim_apply _ bcast_S50000_S50000x1_0 d (ix2 v (0 : Fin 1)) (ix1 v) (fun a => match a with
      | ⟨0, _⟩ => by show v.val = if (50000 : Nat) = 1 then 0 else v.val; rw [if_neg (by decide)])

/-- The message of edge `e` at width 121: the row of `y` its source word names, shifted and clamped. -/
theorem msg121_at (x3 : IVec S2x800000 32) (y : FVec Ideal S50000x121 .f32) (e : Fin 800000) (f : Fin 121) :
    Host.gather gather_S50000x121_S800000x1_S800000x121_1_0_n_n_0_1_1121 y (wrapV x3) (ix2 e f)
      = y (ix2 (Cert.Gcn.rowOf (Cert.Gcn.srcWord x3 e)) f) := by
  rw [show gather_S50000x121_S800000x1_S800000x121_1_0_n_n_0_1_1121 = rowGatherDims 50000 800000 121 _ from rfl]
  exact Cert.Gcn.gather_rows_row _ y (wrapV x3) e f (Cert.Gcn.srcWord x3 e) (wrapV_at x3 e)

/-- The aggregation at width 121 read at `(v, f)`: the specification's layer with the normalisation `dinv`. -/
theorem agg121_at (x3 : IVec S2x800000 32) (y : FVec Ideal S50000x121 .f32) (v : Fin 50000) (f : Fin 121) :
    agg121 (F := Ideal) x3 y (ix2 v f) = Cert.Gcn.layer x3 (Cert.Gcn.dinv x3) (fun u g => y (ix2 u g)) v f := by
  unfold agg121
  rw [mulf_apply, addf_apply, rowScale121_at, dinvV_at]
  rw [show scatter_S50000x121_S800000x1_S800000x121_1_0_0_1 = rowScatterDims 50000 800000 121 _ from rfl]
  rw [scatterAdd_rows_apply, hits_eq, splat_at]
  simp only [msg121_at]
  unfold Cert.Gcn.layer Cert.Gcn.zero
  rfl

end Cert.KernelIdeal.IndexValue

end
-- ==== Proof.KernelValue.lean ====
/-
  The idealized kernel program computes the specification.

  Region 0 leaves, in every row `u`, the product of the features with the first weights scaled by `c u`; the host then
  aggregates it, which is the specification's layer, and takes the hyperbolic tangent: the hidden features. Region 1 does
  the same with the hidden features and the second weights, and the last aggregation is the specification's result.
-/
import proofs.«132743_j20882130993418_2_alg».proof.Proof.Gen.KernelIdeal.Frame
import proofs.«132743_j20882130993418_2_alg».proof.Proof.KernelFold
import proofs.«132743_j20882130993418_2_alg».proof.Proof.Region0Value
import proofs.«132743_j20882130993418_2_alg».proof.Proof.Region1Value
import proofs.«132743_j20882130993418_2_alg».proof.Proof.KernelIndex
import proofs.«132743_j20882130993418_2_alg».proof.Proof.Spec

noncomputable section

open scoped BigOperators

namespace Cert.KernelIdeal.KernelValue

open Cert.KernelIdeal Cert.KernelIdeal.Gen Idealize.ShloMosaic Idealize.ShloMosaic.TcCoe Idealize.SL.Sem Idealize.ShloMosaic.ValueIdx
open Cert.KernelIdeal.RunValue Cert.KernelIdeal.RegionValue Cert.KernelIdeal.IndexValue Cert.Gcn

/-- The hyperbolic tangent of an array, read at an index. -/
theorem tanh_at {s : Shape} {φ : FTy} (x : FVec Ideal s φ) (i : s.Idx) : Host.tanh x i = Ideal.tanh (x i) := rfl

/-- A product of a 50000-row matrix with a weight matrix, each row scaled by a column, read at an index: the
    specification's scaled product, once the column and the matrix are known entry by entry. -/
theorem scaled_product_at {K C : Nat} (a0 : (⟨2, ![50000, K]⟩ : Shape).Idx → EReal) (a1 : (⟨2, ![K, C]⟩ : Shape).Idx → EReal)
    (a2 : (⟨2, ![50000, 1]⟩ : Shape).Idx → EReal) (d : Fin 50000 → EReal) (A : Fin 50000 → Fin K → EReal)
    (h2 : ∀ v, a2 (ix2 v (0 : Fin 1)) = d v) (h0 : ∀ v k, a0 (ix2 v k) = A v k) (u : Fin 50000) (g : Fin C) :
    a2 (ix2 u (0 : Fin 1)) * ∑ k : Fin K, a0 (ix2 u k) * a1 (ix2 k g) = scaled d (mm A (fun k g => a1 (ix2 k g))) u g := by
  unfold scaled mm
  rw [h2]
  refine congrArg (fun s => d u * s) (Finset.sum_congr rfl fun k _ => ?_)
  rw [h0]

variable (m : (ℓ : Loc nD τ sig) → Buf (Elt Ideal) ℓ) (ρ : Dev nD → PrngReg)

/-- The features, the two weight matrices as launched on core `c`. -/
abbrev feats (c : Dev nD) : S50000x50.Idx → EReal := m ((c.tc : Thread nD τ).loc main_arg0)
abbrev weights1 (c : Dev nD) : S50x64.Idx → EReal := m ((c.tc : Thread nD τ).loc main_arg1)
abbrev weights2 (c : Dev nD) : S64x121.Idx → EReal := m ((c.tc : Thread nD τ).loc main_arg2)

/-- The specification's result at core `c`'s launch arguments. -/
def result (c : Dev nD) : S50000x121.Idx → EReal := Cert.Gcn.out (feats m c) (weights1 m c) (weights2 m c) (edges m c)

/-- Region 0 leaves the first product, each row scaled by its normalisation. -/
theorem region0_is (c : Dev nD) :
    (Gen.dat0 (F := Ideal) (Gen.V1 m ρ) c).arrAt 3 cfg0.N
      = fun i : S50000x64.Idx => scaled (dinv (edges m c))
          (mm (fun u k => feats m c (ix2 u k)) (fun k g => weights1 m c (ix2 k g))) (i 0) (i 1) := by
  rw [region0_out_of (Gen.V1 m ρ) c (feats m c) (weights1 m c) (dinvCol (F := Ideal) (edges m c))
    (V1_arg0 m ρ c) (V1_arg1 m ρ c) (V1_v11 m ρ c)]
  funext i
  obtain ⟨u, g, rfl⟩ : ∃ (u : Fin 50000) (g : Fin 64), i = ix2 u g := ⟨i 0, i 1, eq_ix2 i⟩
  exact scaled_product_at (feats m c) (weights1 m c) (dinvCol (F := Ideal) (edges m c)) (dinv (edges m c))
    (fun u k => feats m c (ix2 u k)) (dinvCol_at (edges m c)) (fun _ _ => rfl) u g

/-- The hidden features as the host computes them from region 0's output: the hyperbolic tangent of the aggregation. -/
theorem hidden_at (c : Dev nD) (v : Fin 50000) (k : Fin 64) :
    Host.tanh (agg64 (F := Ideal) (edges m c) ((Gen.dat0 (F := Ideal) (Gen.V1 m ρ) c).arrAt 3 cfg0.N)) (ix2 v k)
      = Gcn.hidden (feats m c) (weights1 m c) (edges m c) v k := by
  rw [tanh_at, agg64_at, region0_is]
  unfold Gcn.hidden
  refine congrArg Ideal.tanh (congrArg (fun y => layer (edges m c) (dinv (edges m c)) y v k) ?_)
  funext w h
  rfl

/-- Region 1 leaves the product of the hidden features with the second weights, each row scaled. -/
theorem region1_is (c : Dev nD) :
    (Gen.dat1 (F := Ideal) (Gen.V3 m ρ) c).arrAt 3 cfg1.N
      = fun i : S50000x121.Idx => scaled (dinv (edges m c))
          (mm (Gcn.hidden (feats m c) (weights1 m c) (edges m c)) (fun k g => weights2 m c (ix2 k g))) (i 0) (i 1) := by
  rw [region1_out_of (Gen.V3 m ρ) c
    (Host.tanh (agg64 (F := Ideal) (edges m c) ((Gen.dat0 (F := Ideal) (Gen.V1 m ρ) c).arrAt 3 cfg0.N)))
    (weights2 m c) (dinvCol (F := Ideal) (edges m c)) (V3_v27 m ρ c) (V3_arg2 m ρ c) (V3_v11 m ρ c)]
  funext i
  obtain ⟨u, g, rfl⟩ : ∃ (u : Fin 50000) (g : Fin 121), i = ix2 u g := ⟨i 0, i 1, eq_ix2 i⟩
  exact scaled_product_at
    (Host.tanh (agg64 (F := Ideal) (edges m c) ((Gen.dat0 (F := Ideal) (Gen.V1 m ρ) c).arrAt 3 cfg0.N)))
    (weights2 m c) (dinvCol (F := Ideal) (edges m c)) (dinv (edges m c))
    (Gcn.hidden (feats m c) (weights1 m c) (edges m c)) (dinvCol_at (edges m c)) (hidden_at m ρ c) u g

/-- The result buffer after the run holds the specification's result. -/
theorem kernel_is_out (c : Dev nD) :
    (Gen.W5 m ρ c (Proc.devRef .tc main_v42) : FVec Ideal S50000x121 .f32) = result m c := by
  rw [W5_v42, region1_is]
  funext i
  obtain ⟨v, f, rfl⟩ : ∃ (v : Fin 50000) (f : Fin 121), i = ix2 v f := ⟨i 0, i 1, eq_ix2 i⟩
  rw [agg121_at]
  rfl

end Cert.KernelIdeal.KernelValue

end
-- ==== Proof.lean ====
/-
  A two-layer graph convolution: a tiled kernel against its plain reference, equal on the extended reals.

  Both programs compute, per layer, `out[v] = Σ_{edges s→v} c[s]·c[v]·xw[s] + c[v]²·xw[v]` with `c = 1/√deg` and `deg` counting
  the edges into a node plus its self-loop. The reference appends the self-loops to the edge list and normalises every
  message by both endpoints before summing; the kernel scales the rows of `xw` by `c` inside its matrix-product regions,
  sums the scaled source rows, adds the scaled row itself and scales once more. Since `c[v]` is a non-negative finite number
  (the degree is a positive whole number whatever the edge array holds), it distributes over the sums of extended reals, and
  the two forms are one function of the arguments: the specification `Cert.Gcn.out`. Edges whose destination is not a node
  are dropped by both programs; source indices are shifted and clamped the same way by both.

  No finiteness of the float inputs is needed for this: the factor that has to distribute is `c[v]`, which depends on the
  edge array alone, and commutativity and associativity of the extended reals' sum and product do the rest.
-/
import proofs.«132743_j20882130993418_2_alg».proof.Defs
import proofs.«132743_j20882130993418_2_alg».proof.Proof.Gen.Kernel
import proofs.«132743_j20882130993418_2_alg».proof.Proof.Gen.Kernel.Skeleton
import proofs.«132743_j20882130993418_2_alg».proof.Proof.Gen.Kernel.Launch
import proofs.«132743_j20882130993418_2_alg».proof.Proof.Gen.Kernel.Points
import proofs.«132743_j20882130993418_2_alg».proof.Proof.Gen.Kernel.Frame
import proofs.«132743_j20882130993418_2_alg».proof.Proof.Gen.KernelIdeal
import proofs.«132743_j20882130993418_2_alg».proof.Proof.Gen.KernelIdeal.Skeleton
import proofs.«132743_j20882130993418_2_alg».proof.Proof.Gen.KernelIdeal.Launch
import proofs.«132743_j20882130993418_2_alg».proof.Proof.Gen.KernelIdeal.Points
import proofs.«132743_j20882130993418_2_alg».proof.Proof.Gen.KernelIdeal.Frame
import proofs.«132743_j20882130993418_2_alg».proof.Proof.Gen.ReferenceIdeal
import proofs.«132743_j20882130993418_2_alg».proof.Proof.Gen.Pre_finite_inputs
import proofs.«132743_j20882130993418_2_alg».proof.Proof.Gen.ReferenceIdeal.Run
import proofs.«132743_j20882130993418_2_alg».proof.Proof.Gen.ReferenceIdeal.Read
import proofs.«132743_j20882130993418_2_alg».proof.Proof.RefChain
import proofs.«132743_j20882130993418_2_alg».proof.Proof.KernelRun
import proofs.«132743_j20882130993418_2_alg».proof.Proof.KernelValue
import Idealize.ShloMosaic.Adequacy
import Idealize.ShloMosaic.Init

noncomputable section

namespace Cert.Proof

open Idealize.ShloMosaic Idealize.SL.Sem

/-- Every fair execution of the word-level kernel ends, faults nowhere and keeps its arguments. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The same for the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's result. -/
theorem algebraic : Cert.algebraic_KernelIdeal_ReferenceIdeal := by
  intro m ρ m' ρ' _ hagree
  refine ⟨fun c => Cert.KernelIdeal.KernelValue.result m c, ?_, ?_⟩
  · exact (θ_run Cert.KernelIdeal.defs _ _).mono
      (fun r h c => ⟨(h c).1.trans (Cert.KernelIdeal.KernelValue.kernel_is_out m ρ c), (h c).2⟩)
      (Cert.KernelIdeal.RunValue.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v78_eq, Cert.ReferenceIdeal.RefValue.ref_is_out, (hagree c).1,
      (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
